-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x64 .f32) (main_arg3 : FVec F S64 .f32) (main_arg4 : FVec F S64x40 .f32) (main_arg5 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S2000x512 : Shape := ⟨2, ![2000, 512]⟩
abbrev S2000x64 : Shape := ⟨2, ![2000, 64]⟩
abbrev S850000x64 : Shape := ⟨2, ![850000, 64]⟩
abbrev S1x64 : Shape := ⟨2, ![1, 64]⟩
abbrev S50000x40 : Shape := ⟨2, ![50000, 40]⟩
abbrev S2000x40 : Shape := ⟨2, ![2000, 40]⟩
abbrev S850000x40 : Shape := ⟨2, ![850000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 86
  | .vmem => 16
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x64, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S850000x1, .f32⟩
  | .hbm, ⟨60, _⟩ => ⟨S850000x64, .f32⟩
  | .hbm, ⟨61, _⟩ => ⟨S850000x64, .f32⟩
  | .hbm, ⟨62, _⟩ => ⟨S_, .f32⟩
  | .hbm, ⟨63, _⟩ => ⟨S50000x64, .f32⟩
  | .hbm, ⟨64, _⟩ => ⟨S850000x1, .i32⟩
  | .hbm, ⟨65, _⟩ => ⟨S50000x64, .f32⟩
  | .hbm, ⟨66, _⟩ => ⟨S1x64, .f32⟩
  | .hbm, ⟨67, _⟩ => ⟨S50000x40, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x40, .f32⟩
  | .hbm, ⟨77, _⟩ => ⟨S850000x1, .f32⟩
  | .hbm, ⟨78, _⟩ => ⟨S850000x40, .f32⟩
  | .hbm, ⟨79, _⟩ => ⟨S850000x40, .f32⟩
  | .hbm, ⟨80, _⟩ => ⟨S_, .f32⟩
  | .hbm, ⟨81, _⟩ => ⟨S50000x40, .f32⟩
  | .hbm, ⟨82, _⟩ => ⟨S850000x1, .i32⟩
  | .hbm, ⟨83, _⟩ => ⟨S50000x40, .f32⟩
  | .hbm, ⟨84, _⟩ => ⟨S1x40, .f32⟩
  | .hbm, ⟨85, _⟩ => ⟨S50000x40, .f32⟩
  | .local _ .vmem, ⟨0, _⟩ => ⟨S2000x512, .f32⟩
  | .local _ .vmem, ⟨1, _⟩ => ⟨S2000x512, .f32⟩
  | .local _ .vmem, ⟨2, _⟩ => ⟨S512x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S64x40, .f32⟩
  | .local _ .vmem, ⟨9, _⟩ => ⟨S2000x40, .f32⟩
  | .local _ .vmem, ⟨10, _⟩ => ⟨S2000x40, .f32⟩
  | .local _ .vmem, ⟨11, _⟩ => ⟨S2000x40, .f32⟩
  | .local _ .vmem, ⟨12, _⟩ => ⟨S2000x40, .f32⟩
  | .local _ .vmem, ⟨13, _⟩ => ⟨S1x40, .f32⟩
  | .local _ .vmem, ⟨14, _⟩ => ⟨S2000x40, .f32⟩
  | .local _ .vmem, ⟨15, _⟩ => ⟨S2000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x40_S64x40_0_0 : ∀ a, (![0, 0] : Fin 2 → Nat) a + S64x40.size a ≤ S64x40.size a
  h_S64x40 : 0 < S64x40.numel
  inb_S2000x40_S2000x40_0_0 : ∀ a, (![0, 0] : Fin 2 → Nat) a + S2000x40.size a ≤ S2000x40.size a
  h_S2000x40 : 0 < S2000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x64_S2000x64_1_0_0_1_n_n_wf : DotDims.WF S2000x512 S512x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x40_S2000x40_1_0_0_1_n_n_wf : DotDims.WF S2000x64 S64x40 S2000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x40.size a ≤ S50000x40.size a
  hwx1_3 : ∀ i : grid1.Coords, EltTy.bits .f32 = 32 ∨ (Rect.block (s := S50000x40) S2000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x40.size a ≤ S50000x40.size a
  hwx2_0 : ∀ i : grid2.Coords, EltTy.bits .f32 = 32 ∨ (Rect.block (s := S50000x40) S2000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S50000x40.size a
  hwx2_2 : ∀ i : grid2.Coords, EltTy.bits .f32 = 32 ∨ (Rect.block (s := S50000x40) S2000x40.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S2000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S2000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 107
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x64, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S850000x1, .f32⟩
  | .hbm, ⟨60, _⟩ => ⟨S850000x64, .f32⟩
  | .hbm, ⟨61, _⟩ => ⟨S850000x64, .f32⟩
  | .hbm, ⟨62, _⟩ => ⟨S_, .f32⟩
  | .hbm, ⟨63, _⟩ => ⟨S50000x64, .f32⟩
  | .hbm, ⟨64, _⟩ => ⟨S850000x1, .i32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S50000x64, .f32⟩
  | .hbm, ⟨69, _⟩ => ⟨S_, .f32⟩
  | .hbm, ⟨70, _⟩ => ⟨S50000x64, .f32⟩
  | .hbm, ⟨71, _⟩ => ⟨S50000x64, .f32⟩
  | .hbm, ⟨72, _⟩ => ⟨S50000x40, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x40, .f32⟩
  | .hbm, ⟨82, _⟩ => ⟨S850000x1, .f32⟩
  | .hbm, ⟨83, _⟩ => ⟨S850000x40, .f32⟩
  | .hbm, ⟨84, _⟩ => ⟨S850000x40, .f32⟩
  | .hbm, ⟨85, _⟩ => ⟨S_, .f32⟩
  | .hbm, ⟨86, _⟩ => ⟨S50000x40, .f32⟩
  | .hbm, ⟨87, _⟩ => ⟨S850000x1, .i32⟩
  | .hbm, ⟨88, _⟩ => ⟨S50000x40, .f32⟩
  | .hbm, ⟨89, _⟩ => ⟨S1x40, .f32⟩
  | .hbm, ⟨90, _⟩ => ⟨S50000x40, .f32⟩
  | .hbm, ⟨91, _⟩ => ⟨S50000x40, .f32⟩
  | .hbm, ⟨92, _⟩ => ⟨S_, .f32⟩
  | .hbm, ⟨93, _⟩ => ⟨S50000, .f32⟩
  | .hbm, ⟨94, _⟩ => ⟨S_, .f32⟩
  | .hbm, ⟨95, _⟩ => ⟨S50000, .f32⟩
  | .hbm, ⟨96, _⟩ => ⟨S50000, .f32⟩
  | .hbm, ⟨97, _⟩ => ⟨S50000x1, .f32⟩
  | .hbm, ⟨98, _⟩ => ⟨S50000x40, .f32⟩
  | .hbm, ⟨99, _⟩ => ⟨S50000x40, .f32⟩
  | .hbm, ⟨100, _⟩ => ⟨S50000x40, .f32⟩
  | .hbm, ⟨101, _⟩ => ⟨S_, .f32⟩
  | .hbm, ⟨102, _⟩ => ⟨S50000, .f32⟩
  | .hbm, ⟨103, _⟩ => ⟨S50000x1, .f32⟩
  | .hbm, ⟨104, _⟩ => ⟨S50000x1, .f32⟩
  | .hbm, ⟨105, _⟩ => ⟨S50000x40, .f32⟩
  | .hbm, ⟨106, _⟩ => ⟨S50000x40, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x64_S50000x64_1_0_0_1_n_n_wf : DotDims.WF S50000x512 S512x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x40_S50000x40_1_0_0_1_n_n_wf : DotDims.WF S50000x64 S64x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.Spec.lean ====
/-
  The three dense stages of the two-layer graph convolution, as functions of whole matrices over the extended reals.

  A matrix with r rows and c columns is a function of a two-coordinate index.  The first stage is the product of the
  node features with the first weight matrix: entry (p, q) is Σ_k x(p, k) · w(k, q).  The second stage adds a bias row to
  the aggregated features, clips at zero and multiplies by the second weight matrix: entry (p, q) is
  Σ_k max(a(p, k) + b(0, k), 0) · w(k, q).  The third stage adds a bias row and takes the logarithm of the softmax
  along each row: with y(c) = z(p, c) + b(0, c) and M the maximum of y over the columns (starting from -∞), entry
  (p, q) is (y(q) - M) - log(Σ_c exp(y(c) - M)).  The zero of the second stage and the -∞ are kept as the values of
  their f32 words, the same words on both sides of every comparison made with these functions.
-/
import Idealize.ShloMosaic.PureOps.Ideal
import Idealize.ShloMosaic.Lib.ValueIdx

noncomputable section

open scoped BigOperators

namespace Cert.Gcn

open Idealize.ShloMosaic Idealize.ShloMosaic.ValueIdx

/-- A matrix of extended reals with r rows and c columns. -/
abbrev Mat (r c : Nat) : Type := (⟨2, ![r, c]⟩ : Shape).Idx → EReal

/-- The value of the f32 word of +0. -/
abbrev zero32 : EReal := Ideal.ofBits .f32 0x00000000#32
/-- The value of the f32 word of -∞. -/
abbrev negInf32 : EReal := Ideal.ofBits .f32 0xFF800000#32

/-- Entry (p, q) of the product x · w. -/
def mmE {n k c : Nat} (x : Mat n k) (w : Mat k c) (p : Fin n) (q : Fin c) : EReal :=
  ∑ j : Fin k, x (ix2 p j) * w (ix2 j q)

/-- The product x · w. -/
def mm {n k c : Nat} (x : Mat n k) (w : Mat k c) : Mat n c := fun i => mmE x w (i 0) (i 1)

theorem mm_apply {n k c : Nat} (x : Mat n k) (w : Mat k c) (p : Fin n) (q : Fin c) :
    mm x w (ix2 p q) = mmE x w p q := rfl

/-- Entry (p, q) of max(a + b, 0) · w, the bias b a row repeated down the rows. -/
def reluMmE {n k c : Nat} (a : Mat n k) (b : Mat 1 k) (w : Mat k c) (p : Fin n) (q : Fin c) : EReal :=
  ∑ j : Fin k, max (a (ix2 p j) + b (ix2 0 j)) zero32 * w (ix2 j q)

/-- The matrix max(a + b, 0) · w. -/
def reluMm {n k c : Nat} (a : Mat n k) (b : Mat 1 k) (w : Mat k c) : Mat n c := fun i => reluMmE a b w (i 0) (i 1)

theorem reluMm_apply {n k c : Nat} (a : Mat n k) (b : Mat 1 k) (w : Mat k c) (p : Fin n) (q : Fin c) :
    reluMm a b w (ix2 p q) = reluMmE a b w p q := rfl

/-- Row p of z + b, the bias b a row repeated down the rows. -/
def biased {n c : Nat} (z : Mat n c) (b : Mat 1 c) (p : Fin n) : Fin c → EReal := fun j => z (ix2 p j) + b (ix2 0 j)

/-- The maximum of a row, starting from -∞. -/
def rowMax {c : Nat} (y : Fin c → EReal) : EReal := (Finset.univ : Finset (Fin c)).fold max negInf32 y

/-- Entry q of the logarithm of the softmax of a row y. -/
def logSoftmaxRow {c : Nat} (y : Fin c → EReal) (q : Fin c) : EReal :=
  (y q - rowMax y) - Ideal.log (∑ j : Fin c, Ideal.exp (y j - rowMax y))

/-- The logarithm of the softmax of z + b along each row. -/
def biasLogSoftmax {n c : Nat} (z : Mat n c) (b : Mat 1 c) : Mat n c := fun i => logSoftmaxRow (biased z b (i 0)) (i 1)

theorem biasLogSoftmax_apply {n c : Nat} (z : Mat n c) (b : Mat 1 c) (p : Fin n) (q : Fin c) :
    biasLogSoftmax z b (ix2 p q) = logSoftmaxRow (biased z b p) q := rfl

end Cert.Gcn

end
-- ==== Proof.HostChain.lean ====
/-
  The graph aggregation shared by the two programs, and the whole network as one function of the arguments.

  Both programs normalise the edge list once (source and target lists with a self loop appended per node, the
  symmetric degree normalisation per edge) and then, twice, gather the rows of a node table along the source list,
  scale each gathered row by its edge's normalisation and add it into the row of its target.  That aggregation is
  written here ONCE, as a function of the edge-index argument and of the table, over the reference program's own
  stages of the edge data; it is never opened: both programs apply it to tables that are proved equal.
  The network is then   logsoftmax( A( relu( A( x·W1 ) + b1 ) · W2 ) + b2 )   with A the aggregation.
-/
import proofs.«177866_j4209067950741_1_alg».proof.Proof.RefReadP
import proofs.«177866_j4209067950741_1_alg».proof.Proof.Spec

noncomputable section

namespace Cert.Gcn

open Idealize.ShloMosaic Idealize.ShloMosaic.ValueIdx
open Cert.ReferenceIdeal Cert.ReferenceIdeal.ReadP

/-- The aggregation of a 64-column node table along the edges given by the edge-index argument. -/
def agg64 (x1 : (⟨S2x800000, .i32⟩ : BufTy).Contents (Elt Ideal)) (h : (⟨S50000x64, .f32⟩ : BufTy).Contents (Elt Ideal)) :
    (⟨S50000x64, .f32⟩ : BufTy).Contents (Elt Ideal) :=
  Host.scatterAdd (F := Ideal) (φ := .f32) scatter_S50000x64_S850000x1_S850000x64_1_0_0_1 (val_main_v43 (F := Ideal)) (val_main_v44 (F := Ideal) x1)
    (mulf (F := Ideal) (φ := .f32) (Host.gather gather_S50000x64_S850000x1_S850000x64_1_0_n_n_0_1_164 h (val_main_v38 (F := Ideal) x1)) (val_main_v41 (F := Ideal) x1))

/-- The aggregation of a 40-column node table along the same edges. -/
def agg40 (x1 : (⟨S2x800000, .i32⟩ : BufTy).Contents (Elt Ideal)) (h : (⟨S50000x40, .f32⟩ : BufTy).Contents (Elt Ideal)) :
    (⟨S50000x40, .f32⟩ : BufTy).Contents (Elt Ideal) :=
  Host.scatterAdd (F := Ideal) (φ := .f32) scatter_S50000x40_S850000x1_S850000x40_1_0_0_1 (val_main_v61 (F := Ideal)) (val_main_v62 (F := Ideal) x1)
    (mulf (F := Ideal) (φ := .f32) (Host.gather gather_S50000x40_S850000x1_S850000x40_1_0_n_n_0_1_140 h (val_main_v56 (F := Ideal) x1)) (val_main_v59 (F := Ideal) x1))

/-- A vector laid as the one row of a matrix. -/
def rowOf {n : Nat} (v : (⟨1, ![n]⟩ : Shape).Idx → EReal) : Mat 1 n := fun i => v (ix1 (i 1))

theorem rowOf_apply {n : Nat} (v : (⟨1, ![n]⟩ : Shape).Idx → EReal) (u : Fin 1) (j : Fin n) : rowOf v (ix2 u j) = v (ix1 j) := rfl

/-- The network's output as one function of the six arguments. -/
def result (x0 : (⟨S50000x512, .f32⟩ : BufTy).Contents (Elt Ideal)) (x1 : (⟨S2x800000, .i32⟩ : BufTy).Contents (Elt Ideal))
    (x2 : (⟨S512x64, .f32⟩ : BufTy).Contents (Elt Ideal)) (x3 : (⟨S64, .f32⟩ : BufTy).Contents (Elt Ideal))
    (x4 : (⟨S64x40, .f32⟩ : BufTy).Contents (Elt Ideal)) (x5 : (⟨S40, .f32⟩ : BufTy).Contents (Elt Ideal)) :
    (⟨S50000x40, .f32⟩ : BufTy).Contents (Elt Ideal) :=
  biasLogSoftmax (agg40 x1 (reluMm (agg64 x1 (mm x0 x2)) (rowOf x3) x4)) (rowOf x5)

/-- The reference's first aggregation is the shared one, applied to its first product. -/
theorem ref_v45 (x0 : (⟨S50000x512, .f32⟩ : BufTy).Contents (Elt Ideal)) (x1 : (⟨S2x800000, .i32⟩ : BufTy).Contents (Elt Ideal))
    (x2 : (⟨S512x64, .f32⟩ : BufTy).Contents (Elt Ideal)) :
    val_main_v45 (F := Ideal) x0 x1 x2 = agg64 x1 (val_main_v32 (F := Ideal) x0 x2) := rfl

/-- The reference's second aggregation is the shared one, applied to its second product. -/
theorem ref_v63 (x0 : (⟨S50000x512, .f32⟩ : BufTy).Contents (Elt Ideal)) (x1 : (⟨S2x800000, .i32⟩ : BufTy).Contents (Elt Ideal))
    (x2 : (⟨S512x64, .f32⟩ : BufTy).Contents (Elt Ideal)) (x3 : (⟨S64, .f32⟩ : BufTy).Contents (Elt Ideal))
    (x4 : (⟨S64x40, .f32⟩ : BufTy).Contents (Elt Ideal)) :
    val_main_v63 (F := Ideal) x0 x1 x2 x3 x4 = agg40 x1 (val_main_v50 (F := Ideal) x0 x1 x2 x3 x4) := rfl

end Cert.Gcn

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.Region0.lean ====
/-
  The first pallas_call: every grid point multiplies a block of 2000 rows of the node features by the whole first
  weight matrix, and the 25 blocks of 2000 rows written back tile the 50000-row result.  So whatever the buffers hold
  when the call is entered, the result array ends holding the product of the features array and the weight array,
  entry (p, q) = Σ_k x(p, k) · w(k, q): the rounding of both operands to bf16 is the identity on the extended reals and
  the matrix unit's accumulator starts at zero.
-/
import proofs.«177866_j4209067950741_1_alg».proof.Proof.Gen.KernelIdeal.Frame
import proofs.«177866_j4209067950741_1_alg».proof.Proof.Spec
import proofs.«177866_j4209067950741_1_alg».proof.Proof.LibMatmulZero
import Idealize.ShloMosaic.Lib.Pipeline.Value
import Idealize.ShloMosaic.PureOps.Ideal.Laws
import Idealize.ShloMosaic.Lib.ValueIdx

noncomputable section

open scoped BigOperators

namespace Cert.KernelIdeal.Reg0

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- One entry of the body's stored value: the sum over the 512 contracted positions of the products of the loaded
    feature block's row and the loaded weight matrix's column. -/
theorem pay_at (x0 : Vec Ideal S2000x512 .f32) (x1 : Vec Ideal S512x64 .f32) (p : Fin 2000) (q : Fin 64) :
    k0_pay1 x0 x1 (ix2 p q) = ∑ k : Fin 512, x0 (ix2 p k) * x1 (ix2 k q) := by
  unfold k0_pay1
  exact Cert.LibMatmulZero.matmul_zero_ix2 dot_S2000x512_S512x64_S2000x64_1_0_0_1_n_n rfl rfl rfl rfl
    (fun i c => by
      unfold DotDims.lhsIdx
      rw [dif_neg (show ¬(0 : Fin S2000x512.rank) ∈ dot_S2000x512_S512x64_S2000x64_1_0_0_1_n_n.lhsBatch by decide), dif_pos (show (0 : Fin S2000x512.rank) ∈ dot_S2000x512_S512x64_S2000x64_1_0_0_1_n_n.lhsNonContracting by decide)]
      rfl)
    (fun i c => by
      unfold DotDims.rhsIdx
      rw [dif_neg (show ¬(1 : Fin S512x64.rank) ∈ dot_S2000x512_S512x64_S2000x64_1_0_0_1_n_n.rhsBatch by decide), dif_pos (show (1 : Fin S512x64.rank) ∈ dot_S2000x512_S512x64_S2000x64_1_0_0_1_n_n.rhsNonContracting by decide)]
      rfl)
    none (truncf .bf16 x0 bitsLt_bf16_f32) (truncf .bf16 x1 bitsLt_bf16_f32) p q

/-- The printed index maps over the 25 grid points: the feature window and the result window move together down the
    rows and stay at column block 0, the weight window stays at block (0, 0), and the row block index is below 25. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 24
    ∧ win0_2.index t (1 : Fin 2) = 0 :=
  (by decide +kernel : ∀ t : Fin grid0.N, _)

/-- Every one of the 25 row blocks is some grid point's. -/
theorem idx_onto : ∀ (q0 : Fin 25), ∃ t : Fin cfg0.N, win0_2.index t = ![q0.val, 0] :=
  (by decide +kernel : ∀ (q0 : Fin 25), ∃ t : Fin grid0.N, win0_2.index t = ![q0.val, 0])

/-- What grid point t writes back is block t of the product of the two arrays as the call finds them. -/
theorem flushed_eq (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x64) hz]
  obtain ⟨e0, e1, e2, e3, e4, e5⟩ := idx_facts t
  funext j
  obtain ⟨p, q, rfl⟩ : ∃ (p : Fin 2000) (q : Fin 64), j = ix2 p q := ⟨j 0, j 1, eq_ix2 j⟩
  show k0_pay1 (iblk0 V c 0 t) (iblk0 V c 1 t) (ix2 p q) = mm (V c main_arg0) (V c main_arg2) (((cfg0.win 2).blk t).view.emb (ix2 p q))
  refine (pay_at _ _ p q).trans ?_
  show _ = mmE (V c main_arg0) (V c main_arg2) ((((cfg0.win 2).blk t).view.emb (ix2 p q)) 0) ((((cfg0.win 2).blk t).view.emb (ix2 p q)) 1)
  unfold mmE
  refine Finset.sum_congr rfl fun k _ => ?_
  have h0 : iblk0 V c 0 t (ix2 p k) = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * k.val = k.val; omega
  have h1 : iblk0 V c 1 t (ix2 k q) = V c main_arg2 (ix2 k ((((cfg0.win 2).blk t).view.emb (ix2 p q)) 1)) := by
    show V c main_arg2 (((cfg0.win 1).blk t).view.emb (ix2 k q)) = _
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 64 + 1 * q.val = win0_2.index t (1 : Fin 2) * 64 + 1 * q.val; omega
  exact congrArg₂ (fun a b : EReal => a * b) h0 h1

/-- An index of the result array is in grid point t's block iff each coordinate is in the block's range on its axis. -/
theorem mem_blk (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v32).slice (win0_2.rect t)).set ↔ _
  rw [View.set_slice_whole, Rect.mem_set_unit]
  exact Iff.rfl

/-- The 25 blocks cover the result array: row r lies in block r / 2000. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- After the call the result array is the product of the features array and the weight array as the call found them. -/
theorem result (c : Dev nD) : (dat0 V c).arrAt 2 cfg0.N = mm (V c main_arg0) (V c main_arg2) :=
  (dat0 V c).arrAt_eq_of_cover 2 (mm (V c main_arg0) (V c main_arg2)) (fun t _ => flushed_eq V c t) cover

end Cert.KernelIdeal.Reg0

end
-- ==== Proof.Region1.lean ====
/-
  The second pallas_call: every grid point takes a block of 2000 rows of the aggregated features, adds the bias row,
  clips at zero and multiplies by the whole second weight matrix; the 25 blocks of 2000 rows written back tile the
  50000-row result.  So whatever the buffers hold when the call is entered, the result array ends holding
  entry (p, q) = Σ_k max(a(p, k) + b(0, k), 0) · w(k, q) of the three arrays a, b, w the call finds: the casts of a block
  to its own shape are the identity, the bias row is repeated down the block's rows, the rounding of both operands to
  bf16 is the identity on the extended reals and the matrix unit's accumulator starts at zero.
-/
import proofs.«177866_j4209067950741_1_alg».proof.Proof.Gen.KernelIdeal.Frame
import proofs.«177866_j4209067950741_1_alg».proof.Proof.Spec
import proofs.«177866_j4209067950741_1_alg».proof.Proof.LibMatmulZero
import Idealize.ShloMosaic.Lib.Pipeline.Value
import Idealize.ShloMosaic.Lib.ValueLayout
import Idealize.ShloMosaic.PureOps.Ideal.Laws
import Idealize.ShloMosaic.Lib.ValueIdx

noncomputable section

open scoped BigOperators

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- One entry of the body's stored value: the sum over the 64 contracted positions of the clipped, biased feature
    entry times the weight entry. -/
theorem pay_at (x0 : Vec Ideal S2000x64 .f32) (x1 : Vec Ideal S1x64 .f32) (x2 : Vec Ideal S64x40 .f32) (p : Fin 2000) (q : Fin 40) :
    k1_pay1 x0 x1 x2 (ix2 p q) = ∑ k : Fin 64, max (x0 (ix2 p k) + x1 (ix2 0 k)) zero32 * x2 (ix2 k q) := by
  unfold k1_pay1
  refine (Cert.LibMatmulZero.matmul_zero_ix2 dot_S2000x64_S64x40_S2000x40_1_0_0_1_n_n rfl rfl rfl rfl
    (fun i c => by
      unfold DotDims.lhsIdx
      rw [dif_neg (show ¬(0 : Fin S2000x64.rank) ∈ dot_S2000x64_S64x40_S2000x40_1_0_0_1_n_n.lhsBatch by decide), dif_pos (show (0 : Fin S2000x64.rank) ∈ dot_S2000x64_S64x40_S2000x40_1_0_0_1_n_n.lhsNonContracting by decide)]
      rfl)
    (fun i c => by
      unfold DotDims.rhsIdx
      rw [dif_neg (show ¬(1 : Fin S64x40.rank) ∈ dot_S2000x64_S64x40_S2000x40_1_0_0_1_n_n.rhsBatch by decide), dif_pos (show (1 : Fin S64x40.rank) ∈ dot_S2000x64_S64x40_S2000x40_1_0_0_1_n_n.rhsNonContracting by decide)]
      rfl)
    none
    (truncf .bf16 (maximumf (addf (shapeCast S2000x64 x0 shapeCasts_S2000x64_S2000x64)
      (broadcastTo S2000x64 (shapeCast S1x64 x1 shapeCasts_S1x64_S1x64) broadcasts_S1x64_S2000x64))
      (broadcast S2000x64 (Scalar.ofBits .f32 0x00000000#32))) bitsLt_bf16_f32)
    (truncf .bf16 x2 bitsLt_bf16_f32) p q).trans ?_
  refine Finset.sum_congr rfl fun k _ => ?_
  rw [shapeCast_self, shapeCast_self]
  show max (x0 (ix2 p k) + broadcastTo S2000x64 x1 broadcasts_S1x64_S2000x64 (ix2 p k)) zero32 * x2 (ix2 k q) = _
  rw [broadcastTo_1b_ab_apply]

/-- The printed index maps over the 25 grid points: the feature window and the result window move together down the
    rows and stay at column block 0, the bias and weight windows stay at block (0, 0), the row block index is below 25. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) ≤ 24
    ∧ win1_3.index t (1 : Fin 2) = 0 :=
  (by decide +kernel : ∀ t : Fin grid1.N, _)

/-- Every one of the 25 row blocks is some grid point's. -/
theorem idx_onto : ∀ (q0 : Fin 25), ∃ t : Fin cfg1.N, win1_3.index t = ![q0.val, 0] :=
  (by decide +kernel : ∀ (q0 : Fin 25), ∃ t : Fin grid1.N, win1_3.index t = ![q0.val, 0])

/-- What grid point t writes back is block t of the clipped product of the three arrays as the call finds them. -/
theorem flushed_eq (c : Dev nD) (t : Fin cfg1.N) :
    (dat1 V c).flushed 3 t = ((cfg1.win 3).blk t).view.read (Elt Ideal) (reluMm (V c main_v45) (V c main_v46) (V c main_arg4)) := by
  show (cfg1.win 3).cut (grid1.coords t) ((dat1 V c).after 3 t) = _
  rw [after1_3]
  unfold out1_3
  rw [View.canon_unit_zero hz]
  simp only [View.ld_unit_zero (S := S2000x64) hz, View.ld_unit_zero (S := S1x64) hz, View.ld_unit_zero (S := S64x40) hz]
  obtain ⟨e0, e1, e2, e3, e4, e5, e6, e7⟩ := idx_facts t
  funext j
  obtain ⟨p, q, rfl⟩ : ∃ (p : Fin 2000) (q : Fin 40), j = ix2 p q := ⟨j 0, j 1, eq_ix2 j⟩
  show k1_pay1 (iblk1 V c 0 t) (iblk1 V c 1 t) (iblk1 V c 2 t) (ix2 p q) = reluMm (V c main_v45) (V c main_v46) (V c main_arg4) (((cfg1.win 3).blk t).view.emb (ix2 p q))
  refine (pay_at _ _ _ p q).trans ?_
  show _ = reluMmE (V c main_v45) (V c main_v46) (V c main_arg4) ((((cfg1.win 3).blk t).view.emb (ix2 p q)) 0) ((((cfg1.win 3).blk t).view.emb (ix2 p q)) 1)
  unfold reluMmE
  refine Finset.sum_congr rfl fun k _ => ?_
  have h0 : iblk1 V c 0 t (ix2 p k) = V c main_v45 (ix2 ((((cfg1.win 3).blk t).view.emb (ix2 p q)) 0) k) := by
    show V c main_v45 (((cfg1.win 0).blk t).view.emb (ix2 p k)) = _
    refine congrArg (V c main_v45) (funext fun a => Fin.ext ?_)
    match a with
    | ⟨0, _⟩ => show win1_0.index t (0 : Fin 2) * 2000 + 1 * p.val = win1_3.index t (0 : Fin 2) * 2000 + 1 * p.val; omega
    | ⟨1, _⟩ => show win1_0.index t (1 : Fin 2) * 64 + 1 * k.val = k.val; omega
  have h1 : iblk1 V c 1 t (ix2 0 k) = V c main_v46 (ix2 0 k) := by
    show V c main_v46 (((cfg1.win 1).blk t).view.emb (ix2 0 k)) = _
    refine congrArg (V c main_v46) (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  have h2 : iblk1 V c 2 t (ix2 k q) = V c main_arg4 (ix2 k ((((cfg1.win 3).blk t).view.emb (ix2 p q)) 1)) := by
    show V c main_arg4 (((cfg1.win 2).blk t).view.emb (ix2 k q)) = _
    refine congrArg (V c main_arg4) (funext fun a => Fin.ext ?_)
    match a with
    | ⟨0, _⟩ => show win1_2.index t (0 : Fin 2) * 64 + 1 * k.val = k.val; omega
    | ⟨1, _⟩ => show win1_2.index t (1 : Fin 2) * 40 + 1 * q.val = win1_3.index t (1 : Fin 2) * 40 + 1 * q.val; omega
  exact congrArg₂ (fun a b : EReal => a * b) (congrArg₂ (fun a b : EReal => max (a + b) zero32) h0 h1) h2

/-- An index of the result array is in grid point t's block iff each coordinate is in the block's range on its axis. -/
theorem mem_blk (t : Fin cfg1.N) (i : S50000x40.Idx) :
    i ∈ ((cfg1.win 3).blk t).view.set ↔ ∀ a : Fin 2, win1_3.index t a * S2000x40.size a ≤ (i a).val ∧ (i a).val < win1_3.index t a * S2000x40.size a + S2000x40.size a := by
  show i ∈ ((View.whole main_v47).slice (win1_3.rect t)).set ↔ _
  rw [View.set_slice_whole, Rect.mem_set_unit]
  exact Iff.rfl

/-- The 25 blocks cover the result array: row r lies in block r / 2000. -/
theorem cover (i : S50000x40.Idx) : ∃ t : Fin cfg1.N, (cfg1.win 3).flush t = true ∧ i ∈ ((cfg1.win 3).blk t).view.set := by
  have hi0 : (i 0).val < 50000 := (i 0).isLt
  have hi1 : (i 1).val < 40 := (i 1).isLt
  obtain ⟨t, ht⟩ := idx_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 40 ≤ (i 1).val ∧ (i 1).val < win1_3.index t (1 : Fin 2) * 40 + 40; omega

/-- After the call the result array is max(a + b, 0) · w of the three arrays as the call found them. -/
theorem result (c : Dev nD) : (dat1 V c).arrAt 3 cfg1.N = reluMm (V c main_v45) (V c main_v46) (V c main_arg4) :=
  (dat1 V c).arrAt_eq_of_cover 3 (reluMm (V c main_v45) (V c main_v46) (V c main_arg4)) (fun t _ => flushed_eq V c t) cover

end Cert.KernelIdeal.Reg1

end
-- ==== Proof.LibRowOps.lean ====
/-
  Row-wise operations of a matrix at the ideal values, read at explicit coordinates.

  For an [R, C] f32 matrix: the sum along the lanes at row n is the sum over the columns of the entries of that row; the
  maximum along the lanes at row n is the fold of max, from the starting word's value, over the columns; a vector of R
  entries recast as an [R, 1] column and broadcast to [R, C] has at (n, c) the vector's entry n.  For an [R, K] × [C, K]
  product into the zero accumulator that contracts axis 1 of both operands (a product with the second operand
  transposed), entry (p, q) is Σ_k l(p, k) · r(q, k).  All hold at any extents; indices are written by coordinates.
-/
import Idealize.ShloMosaic.PureOps.Ideal.Laws
import Idealize.ShloMosaic.Lib.ValueIdx
import Idealize.ShloMosaic.Lib.Pipeline.Value

noncomputable section

open scoped BigOperators

namespace Cert.LibRow

open Idealize.ShloMosaic Idealize.ShloMosaic.ValueIdx

/-- A sum along the lanes of an [R, C] matrix, at row n, is the sum over the columns of the entries of that row. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (n : Fin R) :
    multiReduction .add [1] ⟨1, ![R]⟩ src 0x00000000#32 h hφ hacc (ix1 n) = ∑ a : Fin C, src (ix2 n a) :=
  (Ideal.multiReduction_add_single src _ h hφ hacc (ix1 n)).trans
    (Finset.sum_congr rfl fun a _ => congrArg src (funext fun d => Fin.ext (by
      match d with
      | ⟨0, _⟩ => rfl
      | ⟨1, _⟩ => rfl)))

/-- A maximum along the lanes of an [R, C] matrix, at row n, is the fold of max, from the starting word's value, over
    the columns of the entries of that row. -/
theorem rowMax_apply {R C : Nat} (src : FVec Ideal ⟨2, ![R, C]⟩ .f32) (acc : BitVec 32)
    (h : Shape.Reduces (⟨2, ![R, C]⟩ : Shape) [1] ⟨1, ![R]⟩) (hφ : FKind.Formats .f32)
    (hacc : acc = FKind.maximumf.neutral .f32 hφ) (n : Fin R) :
    multiReduction .maximumf [1] ⟨1, ![R]⟩ src acc h hφ hacc (ix1 n)
      = (Finset.univ : Finset (Fin C)).fold max (Ideal.ofBits .f32 acc) (fun a => src (ix2 n a)) :=
  (Ideal.multiReduction_maximumf_single src acc h hφ hacc (ix1 n)).trans
    (congrArg (fun f => Finset.fold max (Ideal.ofBits .f32 acc) f (Finset.univ : Finset (Fin C)))
      (funext fun a => congrArg src (funext fun d => Fin.ext (by
        match d with
        | ⟨0, _⟩ => rfl
        | ⟨1, _⟩ => rfl))))

/-- A vector of R entries recast as an [R, 1] column and broadcast to [R, C] has at (n, c) the vector's entry n. -/
theorem colBroadcast_apply {R C : Nat} {α : Type} (v : (⟨1, ![R]⟩ : Shape).Idx → α)
    (h1 : (⟨1, ![R]⟩ : Shape).ShapeCasts ⟨2, ![R, 1]⟩) (h2 : (⟨2, ![R, 1]⟩ : Shape).Broadcasts ⟨2, ![R, C]⟩)
    (n : Fin R) (c : Fin C) :
    broadcastTo ⟨2, ![R, C]⟩ (shapeCast ⟨2, ![R, 1]⟩ v h1) h2 (ix2 n c) = v (ix1 n) := by
  refine (broadcastTo_apply (shapeCast ⟨2, ![R, 1]⟩ v h1) h2 (ix2 n c) (ix2 n (0 : Fin 1)) fun ax => ?_).trans ?_
  · match ax with
    | ⟨0, _⟩ =>
      show n.val = if R = 1 then 0 else n.val
      split
      · have := n.isLt; omega
      · rfl
    | ⟨1, _⟩ => rfl
  · exact shapeCast_apply v h1 _ _ (by
      rw [Shape.rowMajor_val_one, Shape.rowMajor_val_two]
      show n.val = n.val * 1 + 0
      omega)

/-- `matmul D prec l r 0 (p, q) = Σ_k l(p, k) · r(q, k)` at the ideal values, for an [R, K] × [C, K] → [R, C] product
    contracting axis 1 of both operands. -/
theorem matmul_zero_nt_ix2 {R K C : Nat} {φ₁ φ₂ : FTy} (D : DotDims ⟨2, ![R, K]⟩ ⟨2, ![C, K]⟩ ⟨2, ![R, C]⟩)
    (hlc : D.lhsContracting = [1]) (hrc : D.rhsContracting = [1]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr0 : ∀ (i : (⟨2, ![R, C]⟩ : Shape).Idx) (c : D.contr.Idx), (D.rhsIdx i c 0).val = (i 1).val)
    (prec : Option ContractPrecision)
    (l : FVec Ideal ⟨2, ![R, K]⟩ φ₁) (r : FVec Ideal ⟨2, ![C, K]⟩ φ₂) (p : Fin R) (q : Fin C) :
    matmul D prec l r (constant ⟨2, ![R, C]⟩ .f32 0x00000000#32) (ix2 p q) = ∑ k : Fin K, l (ix2 p k) * r (ix2 q k) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 q k :=
    funext fun a => Fin.ext (by
      match a with
      | ⟨0, _⟩ => exact hr0 _ _
      | ⟨1, _⟩ => exact (D.rhsIdx_val_of_single hrc _ _).trans hk)
  rw [el, er]

end Cert.LibRow

end
-- ==== Proof.LibLogSoftmax.lean ====
/-
  The logarithm of the softmax along the rows of a matrix, as a vector program computes it, read at one entry at the
  ideal values.

  For an [R, C] f32 matrix z the program takes the maximum M(p) of each row (a reduction along the lanes from the word
  of -∞), keeps it as an [R, 1] column, repeats it along the row and subtracts: s = z - M.  It then sums exp(s) along
  each row (a reduction from the zero word), keeps the sum as a column, takes its logarithm, repeats it along the row
  and subtracts again.  At entry (p, q) the result is
      (z(p, q) - M(p)) - log(Σ_c exp(z(p, c) - M(p))),    M(p) = the fold of max over c of z(p, c) from the starting word's value.
  All extents are arbitrary; indices are written by coordinates.
-/
import proofs.«177866_j4209067950741_1_alg».proof.Proof.LibRowOps

noncomputable section

open scoped BigOperators

namespace Cert.LibLogSoftmax

open Idealize.ShloMosaic Idealize.ShloMosaic.ValueIdx

/-- An [R, 1] column repeated along the rows of an [R, C] matrix has at (n, c) the column's entry n. -/
theorem colRepeat_apply {R C : Nat} {α : Type} (x : (⟨2, ![R, 1]⟩ : Shape).Idx → α)
    (h2 : (⟨2, ![R, 1]⟩ : Shape).Broadcasts ⟨2, ![R, C]⟩) (n : Fin R) (c : Fin C) :
    broadcastTo ⟨2, ![R, C]⟩ x h2 (ix2 n c) = x (ix2 n (0 : Fin 1)) := by
  refine broadcastTo_apply x h2 (ix2 n c) (ix2 n (0 : Fin 1)) fun ax => ?_
  match ax with
  | ⟨0, _⟩ =>
    show n.val = if R = 1 then 0 else n.val
    split
    · have := n.isLt; omega
    · rfl
  | ⟨1, _⟩ => rfl

/-- A vector of R entries recast as an [R, 1] column has at (n, 0) the vector's entry n. -/
theorem castCol_apply {R : Nat} {α : Type} (v : (⟨1, ![R]⟩ : Shape).Idx → α)
    (h1 : (⟨1, ![R]⟩ : Shape).ShapeCasts ⟨2, ![R, 1]⟩) (n : Fin R) :
    shapeCast ⟨2, ![R, 1]⟩ v h1 (ix2 n (0 : Fin 1)) = v (ix1 n) :=
  shapeCast_apply v h1 _ _ (by
    rw [Shape.rowMajor_val_one, Shape.rowMajor_val_two]
    show n.val = n.val * 1 + 0
    omega)

/-- The row maximum as a fold. -/
def rowMaxOf {C : Nat} (b : EReal) (y : Fin C → EReal) : EReal := (Finset.univ : Finset (Fin C)).fold max b y

/-- z minus its row maximum (kept as a column and repeated along the row), at entry (p, q). -/
theorem shifted_apply {R C : Nat} (z : FVec Ideal ⟨2, ![R, C]⟩ .f32) (acc : BitVec 32)
    (h : Shape.Reduces (⟨2, ![R, C]⟩ : Shape) [1] ⟨1, ![R]⟩) (hφ : FKind.Formats .f32)
    (hacc : acc = FKind.maximumf.neutral .f32 hφ)
    (h1 : (⟨1, ![R]⟩ : Shape).ShapeCasts ⟨2, ![R, 1]⟩) (h2 : (⟨2, ![R, 1]⟩ : Shape).Broadcasts ⟨2, ![R, C]⟩)
    (p : Fin R) (q : Fin C) :
    subf z (broadcastTo ⟨2, ![R, C]⟩ (shapeCast ⟨2, ![R, 1]⟩ (multiReduction .maximumf [1] ⟨1, ![R]⟩ z acc h hφ hacc) h1) h2) (ix2 p q)
      = z (ix2 p q) - rowMaxOf (Ideal.ofBits .f32 acc) (fun a => z (ix2 p a)) := by
  show z (ix2 p q) - broadcastTo ⟨2, ![R, C]⟩ (shapeCast ⟨2, ![R, 1]⟩ (multiReduction .maximumf [1] ⟨1, ![R]⟩ z acc h hφ hacc) h1) h2 (ix2 p q) = _
  rw [Cert.LibRow.colBroadcast_apply, Cert.LibRow.rowMax_apply]
  rfl

/-- s minus the logarithm of its row sum of exponentials (kept as a column and repeated along the row), at entry (p, q). -/
theorem subLogSumExp_apply {R C : Nat} (s : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ)
    (h1 : (⟨1, ![R]⟩ : Shape).ShapeCasts ⟨2, ![R, 1]⟩) (h2 : (⟨2, ![R, 1]⟩ : Shape).Broadcasts ⟨2, ![R, C]⟩)
    (p : Fin R) (q : Fin C) :
    subf s (broadcastTo ⟨2, ![R, C]⟩ (log (shapeCast ⟨2, ![R, 1]⟩ (multiReduction .add [1] ⟨1, ![R]⟩ (exp s) 0x00000000#32 h hφ hacc) h1)) h2) (ix2 p q)
      = s (ix2 p q) - Ideal.log (∑ a : Fin C, Ideal.exp (s (ix2 p a))) := by
  show s (ix2 p q) - broadcastTo ⟨2, ![R, C]⟩ (log (shapeCast ⟨2, ![R, 1]⟩ (multiReduction .add [1] ⟨1, ![R]⟩ (exp s) 0x00000000#32 h hφ hacc) h1)) h2 (ix2 p q) = _
  rw [colRepeat_apply]
  show s (ix2 p q) - Ideal.log (shapeCast ⟨2, ![R, 1]⟩ (multiReduction .add [1] ⟨1, ![R]⟩ (exp s) 0x00000000#32 h hφ hacc) h1 (ix2 p (0 : Fin 1))) = _
  rw [castCol_apply, Cert.LibRow.rowAdd_apply]
  rfl

/-- The whole chain at entry (p, q): (z(p, q) - M) - log Σ_c exp(z(p, c) - M), M the row maximum of z. -/
theorem logSoftmax_apply {R C : Nat} (z : FVec Ideal ⟨2, ![R, C]⟩ .f32) (acc : BitVec 32)
    (h : Shape.Reduces (⟨2, ![R, C]⟩ : Shape) [1] ⟨1, ![R]⟩) (hφ : FKind.Formats .f32)
    (haccM : acc = FKind.maximumf.neutral .f32 hφ) (haccA : (0x00000000#32 : BitVec 32) = FKind.add.neutral .f32 hφ)
    (h1 : (⟨1, ![R]⟩ : Shape).ShapeCasts ⟨2, ![R, 1]⟩) (h2 : (⟨2, ![R, 1]⟩ : Shape).Broadcasts ⟨2, ![R, C]⟩)
    (p : Fin R) (q : Fin C) :
    subf (subf z (broadcastTo ⟨2, ![R, C]⟩ (shapeCast ⟨2, ![R, 1]⟩ (multiReduction .maximumf [1] ⟨1, ![R]⟩ z acc h hφ haccM) h1) h2))
        (broadcastTo ⟨2, ![R, C]⟩ (log (shapeCast ⟨2, ![R, 1]⟩ (multiReduction .add [1] ⟨1, ![R]⟩
          (exp (subf z (broadcastTo ⟨2, ![R, C]⟩ (shapeCast ⟨2, ![R, 1]⟩ (multiReduction .maximumf [1] ⟨1, ![R]⟩ z acc h hφ haccM) h1) h2)))
          0x00000000#32 h hφ haccA) h1)) h2) (ix2 p q)
      = (z (ix2 p q) - rowMaxOf (Ideal.ofBits .f32 acc) (fun a => z (ix2 p a)))
        - Ideal.log (∑ c : Fin C, Ideal.exp (z (ix2 p c) - rowMaxOf (Ideal.ofBits .f32 acc) (fun a => z (ix2 p a)))) := by
  rw [subLogSumExp_apply, shifted_apply]
  refine congrArg (fun t => _ - Ideal.log t) (Finset.sum_congr rfl fun c _ => ?_)
  rw [shifted_apply]

end Cert.LibLogSoftmax

end
-- ==== Proof.Region2.lean ====
/-
  The third pallas_call: every grid point takes a block of 2000 rows of the aggregated class scores, adds the bias row
  and replaces each row by the logarithm of its softmax; the 25 blocks of 2000 rows written back tile the 50000-row
  result.  So whatever the buffers hold when the call is entered, the result array ends holding, at (p, q),
  (y(q) - M) - log Σ_c exp(y(c) - M) with y(c) = z(p, c) + b(0, c) and M the maximum of y over the 40 columns: a row of
  the block is a row of the array, and the row maximum and the row sum are taken inside the block's row.
-/
import proofs.«177866_j4209067950741_1_alg».proof.Proof.Gen.KernelIdeal.Frame
import proofs.«177866_j4209067950741_1_alg».proof.Proof.Spec
import proofs.«177866_j4209067950741_1_alg».proof.Proof.LibLogSoftmax
import Idealize.ShloMosaic.Lib.Pipeline.Value
import Idealize.ShloMosaic.Lib.ValueLayout
import Idealize.ShloMosaic.PureOps.Ideal.Laws
import Idealize.ShloMosaic.Lib.ValueIdx

noncomputable section

open scoped BigOperators

namespace Cert.KernelIdeal.Reg2

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The biased block at an entry: the block's entry plus the bias row's entry of that column. -/
theorem biased_at (x0 : Vec Ideal S2000x40 .f32) (x1 : Vec Ideal S1x40 .f32) (p : Fin 2000) (j : Fin 40) :
    addf (F := Ideal) (φ := .f32) (shapeCast S2000x40 x0 shapeCasts_S2000x40_S2000x40)
      (broadcastTo S2000x40 (shapeCast S1x40 x1 shapeCasts_S1x40_S1x40) broadcasts_S1x40_S2000x40) (ix2 p j)
      = x0 (ix2 p j) + x1 (ix2 0 j) := by
  rw [shapeCast_self, shapeCast_self]
  show x0 (ix2 p j) + broadcastTo S2000x40 x1 broadcasts_S1x40_S2000x40 (ix2 p j) = _
  rw [broadcastTo_1b_ab_apply]

/-- One entry of the body's stored value: the logarithm of the softmax of the biased row, at that column. -/
theorem pay_at (x0 : Vec Ideal S2000x40 .f32) (x1 : Vec Ideal S1x40 .f32) (p : Fin 2000) (q : Fin 40) :
    k2_pay1 x0 x1 (ix2 p q) = logSoftmaxRow (biased x0 x1 p) q := by
  unfold k2_pay1
  refine (Cert.LibLogSoftmax.logSoftmax_apply
    (addf (shapeCast S2000x40 x0 shapeCasts_S2000x40_S2000x40)
      (broadcastTo S2000x40 (shapeCast S1x40 x1 shapeCasts_S1x40_S1x40) broadcasts_S1x40_S2000x40))
    0xFF800000#32 reduces_S2000x40_S2000 (.inl rfl) rfl rfl shapeCasts_S2000_S2000x1 broadcasts_S2000x1_S2000x40 p q).trans ?_
  unfold logSoftmaxRow rowMax biased Cert.LibLogSoftmax.rowMaxOf
  simp only [biased_at]

/-- The printed index maps over the 25 grid points: the score window and the result window move together down the
    rows and stay at column block 0, the bias window stays at block (0, 0), the row block index is below 25. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 24
    ∧ win2_2.index t (1 : Fin 2) = 0 :=
  (by decide +kernel : ∀ t : Fin grid2.N, _)

/-- Every one of the 25 row blocks is some grid point's. -/
theorem idx_onto : ∀ (q0 : Fin 25), ∃ t : Fin cfg2.N, win2_2.index t = ![q0.val, 0] :=
  (by decide +kernel : ∀ (q0 : Fin 25), ∃ t : Fin grid2.N, win2_2.index t = ![q0.val, 0])

/-- What grid point t writes back is block t of the row-wise log-softmax of the two arrays as the call finds them. -/
theorem flushed_eq (c : Dev nD) (t : Fin cfg2.N) :
    (dat2 V c).flushed 2 t = ((cfg2.win 2).blk t).view.read (Elt Ideal) (biasLogSoftmax (V c main_v60) (V c main_v61)) := by
  show (cfg2.win 2).cut (grid2.coords t) ((dat2 V c).after 2 t) = _
  rw [after2_2]
  unfold out2_2
  rw [View.canon_unit_zero hz]
  simp only [View.ld_unit_zero (S := S2000x40) hz, View.ld_unit_zero (S := S1x40) hz]
  obtain ⟨e0, e1, e2, e3, e4, e5⟩ := idx_facts t
  funext j
  obtain ⟨p, q, rfl⟩ : ∃ (p : Fin 2000) (q : Fin 40), j = ix2 p q := ⟨j 0, j 1, eq_ix2 j⟩
  show k2_pay1 (iblk2 V c 0 t) (iblk2 V c 1 t) (ix2 p q) = biasLogSoftmax (V c main_v60) (V c main_v61) (((cfg2.win 2).blk t).view.emb (ix2 p q))
  refine (pay_at _ _ p q).trans ?_
  show _ = logSoftmaxRow (biased (V c main_v60) (V c main_v61) ((((cfg2.win 2).blk t).view.emb (ix2 p q)) 0)) ((((cfg2.win 2).blk t).view.emb (ix2 p q)) 1)
  have hrow : biased (iblk2 V c 0 t) (iblk2 V c 1 t) p
      = biased (V c main_v60) (V c main_v61) ((((cfg2.win 2).blk t).view.emb (ix2 p q)) 0) := by
    funext k
    unfold biased
    have h0 : iblk2 V c 0 t (ix2 p k) = V c main_v60 (ix2 ((((cfg2.win 2).blk t).view.emb (ix2 p q)) 0) k) := by
      show V c main_v60 (((cfg2.win 0).blk t).view.emb (ix2 p k)) = _
      refine congrArg (V c main_v60) (funext fun a => Fin.ext ?_)
      match a with
      | ⟨0, _⟩ => show win2_0.index t (0 : Fin 2) * 2000 + 1 * p.val = win2_2.index t (0 : Fin 2) * 2000 + 1 * p.val; omega
      | ⟨1, _⟩ => show win2_0.index t (1 : Fin 2) * 40 + 1 * k.val = k.val; omega
    have h1 : iblk2 V c 1 t (ix2 0 k) = V c main_v61 (ix2 0 k) := by
      show V c main_v61 (((cfg2.win 1).blk t).view.emb (ix2 0 k)) = _
      refine congrArg (V c main_v61) (funext fun a => Fin.ext ?_)
      match a with
      | ⟨0, _⟩ => show win2_1.index t (0 : Fin 2) * 1 + 1 * 0 = 0; omega
      | ⟨1, _⟩ => show win2_1.index t (1 : Fin 2) * 40 + 1 * k.val = k.val; omega
    exact congrArg₂ (fun a b : EReal => a + b) h0 h1
  have hq : q = ((((cfg2.win 2).blk t).view.emb (ix2 p q)) 1) := Fin.ext (by
    show q.val = win2_2.index t (1 : Fin 2) * 40 + 1 * q.val; omega)
  rw [hrow]
  exact congrArg (logSoftmaxRow _) hq

/-- An index of the result array is in grid point t's block iff each coordinate is in the block's range on its axis. -/
theorem mem_blk (t : Fin cfg2.N) (i : S50000x40.Idx) :
    i ∈ ((cfg2.win 2).blk t).view.set ↔ ∀ a : Fin 2, win2_2.index t a * S2000x40.size a ≤ (i a).val ∧ (i a).val < win2_2.index t a * S2000x40.size a + S2000x40.size a := by
  show i ∈ ((View.whole main_v62).slice (win2_2.rect t)).set ↔ _
  rw [View.set_slice_whole, Rect.mem_set_unit]
  exact Iff.rfl

/-- The 25 blocks cover the result array: row r lies in block r / 2000. -/
theorem cover (i : S50000x40.Idx) : ∃ t : Fin cfg2.N, (cfg2.win 2).flush t = true ∧ i ∈ ((cfg2.win 2).blk t).view.set := by
  have hi0 : (i 0).val < 50000 := (i 0).isLt
  have hi1 : (i 1).val < 40 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 40 ≤ (i 1).val ∧ (i 1).val < win2_2.index t (1 : Fin 2) * 40 + 40; omega

/-- After the call the result array is the row-wise log-softmax of z + b of the two arrays as the call found them. -/
theorem result (c : Dev nD) : (dat2 V c).arrAt 2 cfg2.N = biasLogSoftmax (V c main_v60) (V c main_v61) :=
  (dat2 V c).arrAt_eq_of_cover 2 (biasLogSoftmax (V c main_v60) (V c main_v61)) (fun t _ => flushed_eq V c t) cover

end Cert.KernelIdeal.Reg2

end
-- ==== Proof.KernelStages.lean ====
/-
  The idealized kernel's result array as one function of the six arguments.

  The program is five stretches of host operations around three pallas_calls.  Walking the buffer contents from the
  launch to the return: the first stretches compute the edge data (source list, target list, per-edge normalisation)
  from the edge-index argument alone, and no later stretch or call writes them; the first call leaves the product
  x·W1; the next stretch aggregates it along the edges and lays the first bias as a row; the second call leaves
  max(· + b1, 0)·W2; the next stretch aggregates that and lays the second bias as a row; the third call leaves the
  row-wise log-softmax of (· + b2).  The edge data and the aggregation are the reference program's own stages of the
  same operations, so each stretch's result is the shared aggregation applied to the table the call before it left.
-/
import proofs.«177866_j4209067950741_1_alg».proof.Proof.Gen.KernelIdeal.Frame
import proofs.«177866_j4209067950741_1_alg».proof.Proof.HostChain
import proofs.«177866_j4209067950741_1_alg».proof.Proof.Region0
import proofs.«177866_j4209067950741_1_alg».proof.Proof.Region1
import proofs.«177866_j4209067950741_1_alg».proof.Proof.Region2
import Idealize.ShloMosaic.Lib.StableHlo.Run
import Idealize.ShloMosaic.Lib.ValueLayout

noncomputable section

namespace Cert.KernelIdeal.KVal

open Cert.KernelIdeal Cert.KernelIdeal.Gen Idealize.ShloMosaic Idealize.ShloMosaic.TcCoe Idealize.SL.Sem
open Idealize.ShloMosaic.StableHlo Idealize.ShloMosaic.ValueIdx
open Cert.Gcn

variable (m : (ℓ : Loc nD τ sig) → Buf (Elt Ideal) ℓ) (ρ : Dev nD → PrngReg)

/-! ## When the first call is entered: the edge data are the reference's stages of the edge-index argument, and the
    arguments are as launched -/

/-- The first stretch, from any buffer contents X: the degree test, the inverse square roots, the zero the
    selection falls back to, and the source and target lists are the reference's stages of X's edge-index buffer. -/
theorem first_stretch (X : Valuation τ sig (Elt Ideal)) :
    StableHlo.after hostOps0 X (Proc.devRef .tc main_v12) = Cert.ReferenceIdeal.ReadP.val_main_v12 (F := Ideal) (X (Proc.devRef .tc main_arg1))
    ∧ StableHlo.after hostOps0 X (Proc.devRef .tc main_v15) = Cert.ReferenceIdeal.ReadP.val_main_v15 (F := Ideal) (X (Proc.devRef .tc main_arg1))
    ∧ StableHlo.after hostOps0 X (Proc.devRef .tc main_cst_3) = Cert.ReferenceIdeal.ReadP.val_main_cst_3 (F := Ideal)
    ∧ StableHlo.after hostOps0 X (Proc.devRef .tc main_v3) = Cert.ReferenceIdeal.ReadP.val_main_v3 (F := Ideal) (X (Proc.devRef .tc main_arg1))
    ∧ StableHlo.after hostOps0 X (Proc.devRef .tc main_v6) = Cert.ReferenceIdeal.ReadP.val_main_v6 (F := Ideal) (X (Proc.devRef .tc main_arg1)) := by
  refine ⟨?_, ?_, ?_, ?_, ?_⟩ <;> (after_results <;> rfl)

/-- The selection where(deg > 0, 1/sqrt(deg), 0), from any buffer contents X, over the values a (the degree test),
    b (the inverse square roots) and z (the zero) that X holds. -/
theorem second_stretch_vals (X : Valuation τ sig (Elt Ideal)) (a : (⟨S50000, .i1⟩ : BufTy).Contents (Elt Ideal))
    (b : (⟨S50000, .f32⟩ : BufTy).Contents (Elt Ideal)) (z : (⟨S_, .f32⟩ : BufTy).Contents (Elt Ideal))
    (h12 : X (Proc.devRef .tc main_v12) = a) (h15 : X (Proc.devRef .tc main_v15) = b) (hc3 : X (Proc.devRef .tc main_cst_3) = z) :
    StableHlo.after hostOps0_1 X (Proc.devRef .tc main_v16) = select a b (broadcastInDim S50000 ![] bcast_S_S50000 (id z)) := by
  after_results
  rw [h12, h15, hc3]
  rfl

/-- The same selection from buffer contents that hold the reference's stages: the reference's own selection. -/
theorem second_stretch (X : Valuation τ sig (Elt Ideal)) (x1 : (⟨Cert.ReferenceIdeal.S2x800000, .i32⟩ : BufTy).Contents (Elt Ideal))
    (h12 : X (Proc.devRef .tc main_v12) = Cert.ReferenceIdeal.ReadP.val_main_v12 (F := Ideal) x1)
    (h15 : X (Proc.devRef .tc main_v15) = Cert.ReferenceIdeal.ReadP.val_main_v15 (F := Ideal) x1)
    (hc3 : X (Proc.devRef .tc main_cst_3) = Cert.ReferenceIdeal.ReadP.val_main_cst_3 (F := Ideal)) :
    StableHlo.after hostOps0_1 X (Proc.devRef .tc main_v16) = Cert.ReferenceIdeal.ReadP.val_main_v16 (F := Ideal) x1 :=
  (second_stretch_vals X _ _ _ h12 h15 hc3).trans rfl

theorem second_stretch_v3 (X : Valuation τ sig (Elt Ideal)) :
    StableHlo.after hostOps0_1 X (Proc.devRef .tc main_v3) = X (Proc.devRef .tc main_v3) := by
  after_results <;> rfl

theorem second_stretch_v6 (X : Valuation τ sig (Elt Ideal)) :
    StableHlo.after hostOps0_1 X (Proc.devRef .tc main_v6) = X (Proc.devRef .tc main_v6) := by
  after_results <;> rfl

set_option maxHeartbeats 2000000 in
/-- The per-edge normalisation dinv[row] · dinv[col], from any buffer contents X that hold the reference's stages. -/
theorem third_stretch (X : Valuation τ sig (Elt Ideal)) (x1 : (⟨Cert.ReferenceIdeal.S2x800000, .i32⟩ : BufTy).Contents (Elt Ideal))
    (h16 : X (Proc.devRef .tc main_v16) = Cert.ReferenceIdeal.ReadP.val_main_v16 (F := Ideal) x1)
    (h3 : X (Proc.devRef .tc main_v3) = Cert.ReferenceIdeal.ReadP.val_main_v3 (F := Ideal) x1)
    (h6 : X (Proc.devRef .tc main_v6) = Cert.ReferenceIdeal.ReadP.val_main_v6 (F := Ideal) x1) :
    StableHlo.after hostOps0_2 X (Proc.devRef .tc main_v31) = Cert.ReferenceIdeal.ReadP.val_main_v31 (F := Ideal) x1 := by
  after_results_simp
  rw [h16, h3, h6]
  rfl

theorem W3_v3 (c : Dev nD) : W3 m ρ c (Proc.devRef .tc main_v3) = Cert.ReferenceIdeal.ReadP.val_main_v3 (F := Ideal) (m ((c : Thread nD τ).loc main_arg1)) := by
  show StableHlo.after hostOps0_2 (StableHlo.after hostOps0_1 (StableHlo.after hostOps0 (W0 m ρ c))) (Proc.devRef .tc main_v3) = _
  after_results <;> rfl

theorem W3_v6 (c : Dev nD) : W3 m ρ c (Proc.devRef .tc main_v6) = Cert.ReferenceIdeal.ReadP.val_main_v6 (F := Ideal) (m ((c : Thread nD τ).loc main_arg1)) := by
  show StableHlo.after hostOps0_2 (StableHlo.after hostOps0_1 (StableHlo.after hostOps0 (W0 m ρ c))) (Proc.devRef .tc main_v6) = _
  after_results <;> rfl

theorem W3_v31 (c : Dev nD) : W3 m ρ c (Proc.devRef .tc main_v31) = Cert.ReferenceIdeal.ReadP.val_main_v31 (F := Ideal) (m ((c : Thread nD τ).loc main_arg1)) := by
  show StableHlo.after hostOps0_2 (StableHlo.after hostOps0_1 (StableHlo.after hostOps0 (W0 m ρ c))) (Proc.devRef .tc main_v31) = _
  obtain ⟨h12, h15, hc3, h3, h6⟩ := first_stretch (W0 m ρ c)
  exact third_stretch _ _ (second_stretch _ _ h12 h15 hc3) ((second_stretch_v3 _).trans h3) ((second_stretch_v6 _).trans h6)

theorem W3_a0 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results <;> rfl

theorem W3_a2 (c : Dev nD) : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results <;> rfl

theorem W3_a3 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results <;> rfl

theorem W3_a4 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results <;> rfl

theorem W3_a5 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results <;> rfl

/-! ## After the first call: its result is x·W1; nothing else moved -/

theorem W4_v32 (c : Dev nD) : W4 m ρ c (Proc.devRef .tc main_v32) = mm (m ((c : Thread nD τ).loc main_arg0)) (m ((c : Thread nD τ).loc main_arg2)) := by
  refine (W4_arr m ρ c 2).trans ?_
  rw [Cert.KernelIdeal.Reg0.result (V3 m ρ) c]
  show mm (W3 m ρ c (Proc.devRef .tc main_arg0)) (W3 m ρ c (Proc.devRef .tc main_arg2)) = _
  rw [W3_a0, W3_a2]

theorem W4_v3 (c : Dev nD) : W4 m ρ c (Proc.devRef .tc main_v3) = Cert.ReferenceIdeal.ReadP.val_main_v3 (F := Ideal) (m ((c : Thread nD τ).loc main_arg1)) :=
  (W4_of_ne m ρ c main_v3 (by decide)).trans (W3_v3 m ρ c)
theorem W4_v6 (c : Dev nD) : W4 m ρ c (Proc.devRef .tc main_v6) = Cert.ReferenceIdeal.ReadP.val_main_v6 (F := Ideal) (m ((c : Thread nD τ).loc main_arg1)) :=
  (W4_of_ne m ρ c main_v6 (by decide)).trans (W3_v6 m ρ c)
theorem W4_v31 (c : Dev nD) : W4 m ρ c (Proc.devRef .tc main_v31) = Cert.ReferenceIdeal.ReadP.val_main_v31 (F := Ideal) (m ((c : Thread nD τ).loc main_arg1)) :=
  (W4_of_ne m ρ c main_v31 (by decide)).trans (W3_v31 m ρ c)
theorem W4_a3 (c : Dev nD) : W4 m ρ c (Proc.devRef .tc main_arg3) = (m ((c : Thread nD τ).loc main_arg3)) :=
  (W4_of_ne m ρ c main_arg3 (by decide)).trans (W3_a3 m ρ c)
theorem W4_a4 (c : Dev nD) : W4 m ρ c (Proc.devRef .tc main_arg4) = (m ((c : Thread nD τ).loc main_arg4)) :=
  (W4_of_ne m ρ c main_arg4 (by decide)).trans (W3_a4 m ρ c)
theorem W4_a5 (c : Dev nD) : W4 m ρ c (Proc.devRef .tc main_arg5) = (m ((c : Thread nD τ).loc main_arg5)) :=
  (W4_of_ne m ρ c main_arg5 (by decide)).trans (W3_a5 m ρ c)

/-! ## When the second call is entered: the first aggregation, the first bias laid as a row -/

set_option maxHeartbeats 2000000 in
theorem W5_v45 (c : Dev nD) : W5 m ρ c (Proc.devRef .tc main_v45) = agg64 (m ((c : Thread nD τ).loc main_arg1)) (mm (m ((c : Thread nD τ).loc main_arg0)) (m ((c : Thread nD τ).loc main_arg2))) := by
  show StableHlo.after hostOps1 (W4 m ρ c) (Proc.devRef .tc main_v45) = _
  after_results_simp
  rw [W4_v3, W4_v6, W4_v31, W4_v32]
  rfl

theorem W5_v46 (c : Dev nD) : W5 m ρ c (Proc.devRef .tc main_v46) = rowOf (m ((c : Thread nD τ).loc main_arg3)) := by
  show StableHlo.after hostOps1 (W4 m ρ c) (Proc.devRef .tc main_v46) = _
  after_results
  rw [W4_a3]
  funext i
  obtain ⟨u, j, rfl⟩ : ∃ (u : Fin 1) (j : Fin 64), i = ix2 u j := ⟨i 0, i 1, eq_ix2 i⟩
  exact shapeCast_a_1a_apply _ _ u j

theorem W5_a4 (c : Dev nD) : W5 m ρ c (Proc.devRef .tc main_arg4) = (m ((c : Thread nD τ).loc main_arg4)) := by
  show StableHlo.after hostOps1 (W4 m ρ c) (Proc.devRef .tc main_arg4) = _
  after_results
  exact W4_a4 m ρ c

theorem W5_a5 (c : Dev nD) : W5 m ρ c (Proc.devRef .tc main_arg5) = (m ((c : Thread nD τ).loc main_arg5)) := by
  show StableHlo.after hostOps1 (W4 m ρ c) (Proc.devRef .tc main_arg5) = _
  after_results
  exact W4_a5 m ρ c

theorem W5_v3 (c : Dev nD) : W5 m ρ c (Proc.devRef .tc main_v3) = Cert.ReferenceIdeal.ReadP.val_main_v3 (F := Ideal) (m ((c : Thread nD τ).loc main_arg1)) := by
  show StableHlo.after hostOps1 (W4 m ρ c) (Proc.devRef .tc main_v3) = _
  after_results
  exact W4_v3 m ρ c

theorem W5_v6 (c : Dev nD) : W5 m ρ c (Proc.devRef .tc main_v6) = Cert.ReferenceIdeal.ReadP.val_main_v6 (F := Ideal) (m ((c : Thread nD τ).loc main_arg1)) := by
  show StableHlo.after hostOps1 (W4 m ρ c) (Proc.devRef .tc main_v6) = _
  after_results
  exact W4_v6 m ρ c

theorem W5_v31 (c : Dev nD) : W5 m ρ c (Proc.devRef .tc main_v31) = Cert.ReferenceIdeal.ReadP.val_main_v31 (F := Ideal) (m ((c : Thread nD τ).loc main_arg1)) := by
  show StableHlo.after hostOps1 (W4 m ρ c) (Proc.devRef .tc main_v31) = _
  after_results
  exact W4_v31 m ρ c

/-! ## After the second call: its result is max(· + b1, 0)·W2 of the aggregated product; nothing else moved -/

theorem W6_v47 (c : Dev nD) : W6 m ρ c (Proc.devRef .tc main_v47) = reluMm (agg64 (m ((c : Thread nD τ).loc main_arg1)) (mm (m ((c : Thread nD τ).loc main_arg0)) (m ((c : Thread nD τ).loc main_arg2)))) (rowOf (m ((c : Thread nD τ).loc main_arg3))) (m ((c : Thread nD τ).loc main_arg4)) := by
  refine (W6_arr m ρ c 3).trans ?_
  rw [Cert.KernelIdeal.Reg1.result (V5 m ρ) c]
  show reluMm (W5 m ρ c (Proc.devRef .tc main_v45)) (W5 m ρ c (Proc.devRef .tc main_v46)) (W5 m ρ c (Proc.devRef .tc main_arg4)) = _
  rw [W5_v45, W5_v46, W5_a4]

theorem W6_v3 (c : Dev nD) : W6 m ρ c (Proc.devRef .tc main_v3) = Cert.ReferenceIdeal.ReadP.val_main_v3 (F := Ideal) (m ((c : Thread nD τ).loc main_arg1)) :=
  (W6_of_ne m ρ c main_v3 (by decide)).trans (W5_v3 m ρ c)
theorem W6_v6 (c : Dev nD) : W6 m ρ c (Proc.devRef .tc main_v6) = Cert.ReferenceIdeal.ReadP.val_main_v6 (F := Ideal) (m ((c : Thread nD τ).loc main_arg1)) :=
  (W6_of_ne m ρ c main_v6 (by decide)).trans (W5_v6 m ρ c)
theorem W6_v31 (c : Dev nD) : W6 m ρ c (Proc.devRef .tc main_v31) = Cert.ReferenceIdeal.ReadP.val_main_v31 (F := Ideal) (m ((c : Thread nD τ).loc main_arg1)) :=
  (W6_of_ne m ρ c main_v31 (by decide)).trans (W5_v31 m ρ c)
theorem W6_a5 (c : Dev nD) : W6 m ρ c (Proc.devRef .tc main_arg5) = (m ((c : Thread nD τ).loc main_arg5)) :=
  (W6_of_ne m ρ c main_arg5 (by decide)).trans (W5_a5 m ρ c)

/-! ## When the third call is entered: the second aggregation, the second bias laid as a row -/

set_option maxHeartbeats 2000000 in
theorem W7_v60 (c : Dev nD) : W7 m ρ c (Proc.devRef .tc main_v60) = agg40 (m ((c : Thread nD τ).loc main_arg1)) (reluMm (agg64 (m ((c : Thread nD τ).loc main_arg1)) (mm (m ((c : Thread nD τ).loc main_arg0)) (m ((c : Thread nD τ).loc main_arg2)))) (rowOf (m ((c : Thread nD τ).loc main_arg3))) (m ((c : Thread nD τ).loc main_arg4))) := by
  show StableHlo.after hostOps2 (W6 m ρ c) (Proc.devRef .tc main_v60) = _
  after_results_simp
  rw [W6_v3, W6_v6, W6_v31, W6_v47]
  rfl

theorem W7_v61 (c : Dev nD) : W7 m ρ c (Proc.devRef .tc main_v61) = rowOf (m ((c : Thread nD τ).loc main_arg5)) := by
  show StableHlo.after hostOps2 (W6 m ρ c) (Proc.devRef .tc main_v61) = _
  after_results
  rw [W6_a5]
  funext i
  obtain ⟨u, j, rfl⟩ : ∃ (u : Fin 1) (j : Fin 40), i = ix2 u j := ⟨i 0, i 1, eq_ix2 i⟩
  exact shapeCast_a_1a_apply _ _ u j

/-! ## At the return: the result array is the network's output of the six arguments -/

theorem result_eq (c : Dev nD) :
    W8 m ρ c (Proc.devRef .tc main_v62) = Cert.Gcn.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 2).trans ?_
  rw [Cert.KernelIdeal.Reg2.result (V7 m ρ) c]
  show biasLogSoftmax (W7 m ρ c (Proc.devRef .tc main_v60)) (W7 m ρ c (Proc.devRef .tc main_v61)) = _
  rw [W7_v60, W7_v61]
  rfl

end Cert.KernelIdeal.KVal

end
-- ==== Proof.KernelValue.lean ====
/-
  The idealized kernel's run with its result named: every weakly fair execution terminates with the result array at
  the network's output of the six argument arrays, and the argument arrays unchanged.  The run is the launch over the
  program's segments with the result array read at the last boundary; what that boundary holds there is the chain of
  the three calls' results through the host stretches.
-/
import proofs.«177866_j4209067950741_1_alg».proof.Proof.KernelRunP
import proofs.«177866_j4209067950741_1_alg».proof.Proof.KernelStages

noncomputable section

namespace Cert.KernelIdeal.KVal

open Cert.KernelIdeal Cert.KernelIdeal.Gen Idealize.ShloMosaic Idealize.ShloMosaic.TcCoe Idealize.SL.Sem

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v62) = Cert.Gcn.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (result_eq m ρ c), (h c).2⟩) (Cert.KernelIdeal.GenP.run_named m ρ)

end Cert.KernelIdeal.KVal

end
-- ==== Proof.RefStages.lean ====
/-
  The reference program's line of 101 operations, read back in six stretches.

  The line is cut where few buffers are live: after the edge data (the two edge lists with a self loop per node and
  the per-edge normalisation), after the first product, after the first aggregation, after the second product, after
  the second aggregation; the last stretch is the bias and the logarithm of the softmax.  What the buffers hold after
  two lists run one after the other is what the second leaves from what the first leaves (after_append).  For each
  stretch, run from ANY contents X, two kinds of facts are read off the stretch alone: the buffer a later stretch
  needs holds the stage function (of RefReadP) of what X held at the stretch's inputs; and a buffer the stretch does
  not write holds what X held.  Chaining the six gives the result buffer after the whole line as the last stage
  function of the six arguments' launch contents; no composed term of the whole line is ever written.
-/
import proofs.«177866_j4209067950741_1_alg».proof.Proof.RefRunP
import proofs.«177866_j4209067950741_1_alg».proof.Proof.RefReadP

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- Two lists of operations run one after the other: the second runs from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Stretch A: the edge lists with their self loops and the per-edge normalisation (through main_v31). -/
def opsA : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.sqrt : (⟨S50000, .f32⟩ : BufTy).Contents (Elt F) → (⟨S50000, .f32⟩ : BufTy).Contents (Elt F)),
    nullary main_cst_2 (constant S_ .f32 0x3F800000#32),
    unary main_cst_2 main_v14 (broadcastInDim S50000 ![] bcast_S_S50000 : (⟨S_, .f32⟩ : BufTy).Contents (Elt F) → (⟨S50000, .f32⟩ : BufTy).Contents (Elt F)),
    binary main_v14 main_v13 main_v15 (Host.divf : (⟨S50000, .f32⟩ : BufTy).Contents (Elt F) → (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v15) (TRef.of (T := ⟨S50000, .f32⟩) main_call0_v1) (TRef.of (T := ⟨S50000, .f32⟩) main_v16) select,
    nullary main_c (constantI S_ 32 0#32),
    unary main_c main_v17 (broadcastInDim S850000 ![] bcast_S_S850000 : (⟨S_, .i32⟩ : BufTy).Contents (Elt F) → (⟨S850000, .i32⟩ : BufTy).Contents (Elt F)),
    binary main_v3 main_v17 main_v18 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v19 (broadcastInDim S850000 ![] bcast_S_S850000 : (⟨S_, .i32⟩ : BufTy).Contents (Elt F) → (⟨S850000, .i32⟩ : BufTy).Contents (Elt F)),
    binary main_v3 main_v19 main_v20 (addi : (⟨S850000, .i32⟩ : BufTy).Contents (Elt F) → (⟨S850000, .i32⟩ : BufTy).Contents (Elt F) → (⟨S850000, .i32⟩ : BufTy).Contents (Elt F)),
    ternary main_v18 main_v20 main_v3 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v21 main_v22 (broadcastInDim S850000x1 ![0] bcast_S850000_S850000x1_0 : (⟨S850000, .i32⟩ : BufTy).Contents (Elt F) → (⟨S850000x1, .i32⟩ : BufTy).Contents (Elt F)),
    binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v26 (broadcastInDim S850000 ![] bcast_S_S850000 : (⟨S_, .i32⟩ : BufTy).Contents (Elt F) → (⟨S850000, .i32⟩ : BufTy).Contents (Elt F)),
    binary main_v6 main_v26 main_v27 (addi : (⟨S850000, .i32⟩ : BufTy).Contents (Elt F) → (⟨S850000, .i32⟩ : BufTy).Contents (Elt F) → (⟨S850000, .i32⟩ : BufTy).Contents (Elt F)),
    ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v28 main_v29 (broadcastInDim S850000x1 ![0] bcast_S850000_S850000x1_0 : (⟨S850000, .i32⟩ : BufTy).Contents (Elt F) → (⟨S850000x1, .i32⟩ : BufTy).Contents (Elt F)),
    binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v23 main_v30 main_v31 (mulf : (⟨S850000, .f32⟩ : BufTy).Contents (Elt F) → (⟨S850000, .f32⟩ : BufTy).Contents (Elt F) → (⟨S850000, .f32⟩ : BufTy).Contents (Elt F)) ]

/-- Stretch B: the first product (main_v32). -/
def opsB : List (HloOp τ sig (Elt F)) :=
  [ binary main_arg0 main_arg2 main_v32 ((fun l r => Host.dotGeneral dot_S50000x512_S512x64_S50000x64_1_0_0_1_n_n none l r) : (⟨S50000x512, .f32⟩ : BufTy).Contents (Elt F) → (⟨S512x64, .f32⟩ : BufTy).Contents (Elt F) → (⟨S50000x64, .f32⟩ : BufTy).Contents (Elt F)) ]

/-- Stretch C: the first aggregation (main_c_7 … main_v45). -/
def opsC : List (HloOp τ sig (Elt F)) :=
  [ nullary main_c_7 (constantI S_ 32 0#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v35 (broadcastInDim S850000 ![] bcast_S_S850000 : (⟨S_, .i32⟩ : BufTy).Contents (Elt F) → (⟨S850000, .i32⟩ : BufTy).Contents (Elt F)),
    binary main_v3 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v3 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v32 main_v38 main_v39 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v31 main_v40 (broadcastInDim S850000x1 ![0] bcast_S850000_S850000x1_0 : (⟨S850000, .f32⟩ : BufTy).Contents (Elt F) → (⟨S850000x1, .f32⟩ : BufTy).Contents (Elt F)),
    unary main_v40 main_v41 (broadcastInDim S850000x64 ![0, 1] bcast_S850000x1_S850000x64_0_1 : (⟨S850000x1, .f32⟩ : BufTy).Contents (Elt F) → (⟨S850000x64, .f32⟩ : BufTy).Contents (Elt F)),
    binary main_v39 main_v41 main_v42 (mulf : (⟨S850000x64, .f32⟩ : BufTy).Contents (Elt F) → (⟨S850000x64, .f32⟩ : BufTy).Contents (Elt F) → (⟨S850000x64, .f32⟩ : BufTy).Contents (Elt F)),
    nullary main_cst_9 (constant S_ .f32 0x00000000#32),
    unary main_cst_9 main_v43 (broadcastInDim S50000x64 ![] bcast_S_S50000x64 : (⟨S_, .f32⟩ : BufTy).Contents (Elt F) → (⟨S50000x64, .f32⟩ : BufTy).Contents (Elt F)),
    unary main_v6 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ]

/-- Stretch D: bias, clip at zero and the second product (main_v46 … main_v50). -/
def opsD : List (HloOp τ sig (Elt F)) :=
  [ unary main_arg3 main_v46 (broadcastInDim S1x64 ![1] bcast_S64_S1x64_1 : (⟨S64, .f32⟩ : BufTy).Contents (Elt F) → (⟨S1x64, .f32⟩ : BufTy).Contents (Elt F)),
    unary main_v46 main_v47 (broadcastInDim S50000x64 ![0, 1] bcast_S1x64_S50000x64_0_1 : (⟨S1x64, .f32⟩ : BufTy).Contents (Elt F) → (⟨S50000x64, .f32⟩ : BufTy).Contents (Elt F)),
    binary main_v45 main_v47 main_v48 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v48) (TRef.of (T := ⟨S50000x64, .f32⟩) main_call1_v0) (TRef.of (T := ⟨S50000x64, .f32⟩) main_v49) maximumf,
    binary main_v49 main_arg4 main_v50 ((fun l r => Host.dotGeneral dot_S50000x64_S64x40_S50000x40_1_0_0_1_n_n none l r) : (⟨S50000x64, .f32⟩ : BufTy).Contents (Elt F) → (⟨S64x40, .f32⟩ : BufTy).Contents (Elt F) → (⟨S50000x40, .f32⟩ : BufTy).Contents (Elt F)) ]

/-- Stretch E: the second aggregation (main_c_10 … main_v63). -/
def opsE : List (HloOp τ sig (Elt F)) :=
  [ nullary main_c_10 (constantI S_ 32 0#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (cmpi .slt : (⟨S850000, .i32⟩ : BufTy).Contents (Elt F) → (⟨S850000, .i32⟩ : BufTy).Contents (Elt F) → (⟨S850000, .i1⟩ : BufTy).Contents (Elt F)),
    nullary main_c_11 (constantI S_ 32 50000#32),
    unary main_c_11 main_v53 (broadcastInDim S850000 ![] bcast_S_S850000 : (⟨S_, .i32⟩ : BufTy).Contents (Elt F) → (⟨S850000, .i32⟩ : BufTy).Contents (Elt F)),
    binary main_v3 main_v53 main_v54 (addi : (⟨S850000, .i32⟩ : BufTy).Contents (Elt F) → (⟨S850000, .i32⟩ : BufTy).Contents (Elt F) → (⟨S850000, .i32⟩ : BufTy).Contents (Elt F)),
    ternary main_v52 main_v54 main_v3 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v55 main_v56 (broadcastInDim S850000x1 ![0] bcast_S850000_S850000x1_0 : (⟨S850000, .i32⟩ : BufTy).Contents (Elt F) → (⟨S850000x1, .i32⟩ : BufTy).Contents (Elt F)),
    binary main_v50 main_v56 main_v57 ((fun x i => Host.gather gather_S50000x40_S850000x1_S850000x40_1_0_n_n_0_1_140 x i) : (⟨S50000x40, .f32⟩ : BufTy).Contents (Elt F) → (⟨S850000x1, .i32⟩ : BufTy).Contents (Elt F) → (⟨S850000x40, .f32⟩ : BufTy).Contents (Elt F)),
    unary main_v31 main_v58 (broadcastInDim S850000x1 ![0] bcast_S850000_S850000x1_0 : (⟨S850000, .f32⟩ : BufTy).Contents (Elt F) → (⟨S850000x1, .f32⟩ : BufTy).Contents (Elt F)),
    unary main_v58 main_v59 (broadcastInDim S850000x40 ![0, 1] bcast_S850000x1_S850000x40_0_1 : (⟨S850000x1, .f32⟩ : BufTy).Contents (Elt F) → (⟨S850000x40, .f32⟩ : BufTy).Contents (Elt F)),
    binary main_v57 main_v59 main_v60 (mulf : (⟨S850000x40, .f32⟩ : BufTy).Contents (Elt F) → (⟨S850000x40, .f32⟩ : BufTy).Contents (Elt F) → (⟨S850000x40, .f32⟩ : BufTy).Contents (Elt F)),
    nullary main_cst_12 (constant S_ .f32 0x00000000#32),
    unary main_cst_12 main_v61 (broadcastInDim S50000x40 ![] bcast_S_S50000x40 : (⟨S_, .f32⟩ : BufTy).Contents (Elt F) → (⟨S50000x40, .f32⟩ : BufTy).Contents (Elt F)),
    unary main_v6 main_v62 (broadcastInDim S850000x1 ![0] bcast_S850000_S850000x1_0 : (⟨S850000, .i32⟩ : BufTy).Contents (Elt F) → (⟨S850000x1, .i32⟩ : BufTy).Contents (Elt F)),
    ternary main_v61 main_v62 main_v60 main_v63 ((fun x i u => Host.scatterAdd scatter_S50000x40_S850000x1_S850000x40_1_0_0_1 x i u) : (⟨S50000x40, .f32⟩ : BufTy).Contents (Elt F) → (⟨S850000x1, .i32⟩ : BufTy).Contents (Elt F) → (⟨S850000x40, .f32⟩ : BufTy).Contents (Elt F) → (⟨S50000x40, .f32⟩ : BufTy).Contents (Elt F)) ]

/-- Stretch F: bias and the logarithm of the softmax (main_v64 … main_v67). -/
def opsF : List (HloOp τ sig (Elt F)) :=
  [ unary main_arg5 main_v64 (broadcastInDim S1x40 ![1] bcast_S40_S1x40_1 : (⟨S40, .f32⟩ : BufTy).Contents (Elt F) → (⟨S1x40, .f32⟩ : BufTy).Contents (Elt F)),
    unary main_v64 main_v65 (broadcastInDim S50000x40 ![0, 1] bcast_S1x40_S50000x40_0_1 : (⟨S1x40, .f32⟩ : BufTy).Contents (Elt F) → (⟨S50000x40, .f32⟩ : BufTy).Contents (Elt F)),
    binary main_v63 main_v65 main_v66 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call2_cst) (constant S_ .f32 0xFF800000#32),
    TRef.binary (TRef.of (T := ⟨S50000x40, .f32⟩) main_v66) (TRef.of (T := ⟨S_, .f32⟩) main_call2_cst) (TRef.of (T := ⟨S50000, .f32⟩) main_call2_v0) (fun x v => Host.reduce FloatOps.maximumf x v reducesTo_S50000x40_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x40, .f32⟩) main_call2_v4) (broadcastInDim S50000x40 ![0, 1] bcast_S50000x1_S50000x40_0_1),
    TRef.binary (TRef.of (T := ⟨S50000x40, .f32⟩) main_v66) (TRef.of (T := ⟨S50000x40, .f32⟩) main_call2_v4) (TRef.of (T := ⟨S50000x40, .f32⟩) main_call2_v5) subf,
    TRef.unary (TRef.of (T := ⟨S50000x40, .f32⟩) main_call2_v5) (TRef.of (T := ⟨S50000x40, .f32⟩) main_call2_v6) Host.exp,
    TRef.nullary (TRef.of (T := ⟨S_, .f32⟩) main_call2_cst_1) (constant S_ .f32 0x00000000#32),
    TRef.binary (TRef.of (T := ⟨S50000x40, .f32⟩) main_call2_v6) (TRef.of (T := ⟨S_, .f32⟩) main_call2_cst_1) (TRef.of (T := ⟨S50000, .f32⟩) main_call2_v7) (fun x v => Host.reduceAdd x v reducesTo_S50000x40_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x40, .f32⟩) main_call2_v10) (broadcastInDim S50000x40 ![0, 1] bcast_S50000x1_S50000x40_0_1),
    TRef.binary (TRef.of (T := ⟨S50000x40, .f32⟩) main_call2_v5) (TRef.of (T := ⟨S50000x40, .f32⟩) main_call2_v10) (TRef.of (T := ⟨S50000x40, .f32⟩) main_v67) subf ]

set_option maxRecDepth 8192 in
/-- The line is the six stretches in order. -/
theorem ops_split : (ops : List (HloOp τ sig (Elt F))) = opsA ++ (opsB ++ (opsC ++ (opsD ++ (opsE ++ opsF)))) := rfl

/-- A reference that is none of a stretch's result buffers keeps its contents through the stretch (each operation
    writes its one result buffer, a different reference). -/
local macro "kept_by " l:ident : tactic => `(tactic| (
  refine after_of_forall_not_mem _ _ (List.forall_iff_forall_mem.mp ?_)
  simp only [$l:ident, List.Forall, nullary_writes, unary_writes, binary_writes, ternary_writes, reshape_writes, Finset.mem_singleton]
  repeat' apply And.intro
  all_goals exact devRef_ne_of_ne (by decide)))

/-! ## What each stretch keeps -/

set_option maxRecDepth 8192 in
theorem keptA_arg0 (X : Valuation τ sig (Elt F)) : after opsA X (Proc.devRef .tc main_arg0) = X (Proc.devRef .tc main_arg0) := by kept_by opsA
set_option maxRecDepth 8192 in
theorem keptA_arg2 (X : Valuation τ sig (Elt F)) : after opsA X (Proc.devRef .tc main_arg2) = X (Proc.devRef .tc main_arg2) := by kept_by opsA
set_option maxRecDepth 8192 in
theorem keptA_arg3 (X : Valuation τ sig (Elt F)) : after opsA X (Proc.devRef .tc main_arg3) = X (Proc.devRef .tc main_arg3) := by kept_by opsA
set_option maxRecDepth 8192 in
theorem keptA_arg4 (X : Valuation τ sig (Elt F)) : after opsA X (Proc.devRef .tc main_arg4) = X (Proc.devRef .tc main_arg4) := by kept_by opsA
set_option maxRecDepth 8192 in
theorem keptA_arg5 (X : Valuation τ sig (Elt F)) : after opsA X (Proc.devRef .tc main_arg5) = X (Proc.devRef .tc main_arg5) := by kept_by opsA
set_option maxRecDepth 8192 in
theorem keptB_v3 (X : Valuation τ sig (Elt F)) : after opsB X (Proc.devRef .tc main_v3) = X (Proc.devRef .tc main_v3) := by kept_by opsB
set_option maxRecDepth 8192 in
theorem keptB_v6 (X : Valuation τ sig (Elt F)) : after opsB X (Proc.devRef .tc main_v6) = X (Proc.devRef .tc main_v6) := by kept_by opsB
set_option maxRecDepth 8192 in
theorem keptB_v31 (X : Valuation τ sig (Elt F)) : after opsB X (Proc.devRef .tc main_v31) = X (Proc.devRef .tc main_v31) := by kept_by opsB
set_option maxRecDepth 8192 in
theorem keptB_arg3 (X : Valuation τ sig (Elt F)) : after opsB X (Proc.devRef .tc main_arg3) = X (Proc.devRef .tc main_arg3) := by kept_by opsB
set_option maxRecDepth 8192 in
theorem keptB_arg4 (X : Valuation τ sig (Elt F)) : after opsB X (Proc.devRef .tc main_arg4) = X (Proc.devRef .tc main_arg4) := by kept_by opsB
set_option maxRecDepth 8192 in
theorem keptB_arg5 (X : Valuation τ sig (Elt F)) : after opsB X (Proc.devRef .tc main_arg5) = X (Proc.devRef .tc main_arg5) := by kept_by opsB
set_option maxRecDepth 8192 in
theorem keptC_v3 (X : Valuation τ sig (Elt F)) : after opsC X (Proc.devRef .tc main_v3) = X (Proc.devRef .tc main_v3) := by kept_by opsC
set_option maxRecDepth 8192 in
theorem keptC_v6 (X : Valuation τ sig (Elt F)) : after opsC X (Proc.devRef .tc main_v6) = X (Proc.devRef .tc main_v6) := by kept_by opsC
set_option maxRecDepth 8192 in
theorem keptC_v31 (X : Valuation τ sig (Elt F)) : after opsC X (Proc.devRef .tc main_v31) = X (Proc.devRef .tc main_v31) := by kept_by opsC
set_option maxRecDepth 8192 in
theorem keptC_arg3 (X : Valuation τ sig (Elt F)) : after opsC X (Proc.devRef .tc main_arg3) = X (Proc.devRef .tc main_arg3) := by kept_by opsC
set_option maxRecDepth 8192 in
theorem keptC_arg4 (X : Valuation τ sig (Elt F)) : after opsC X (Proc.devRef .tc main_arg4) = X (Proc.devRef .tc main_arg4) := by kept_by opsC
set_option maxRecDepth 8192 in
theorem keptC_arg5 (X : Valuation τ sig (Elt F)) : after opsC X (Proc.devRef .tc main_arg5) = X (Proc.devRef .tc main_arg5) := by kept_by opsC
set_option maxRecDepth 8192 in
theorem keptD_v3 (X : Valuation τ sig (Elt F)) : after opsD X (Proc.devRef .tc main_v3) = X (Proc.devRef .tc main_v3) := by kept_by opsD
set_option maxRecDepth 8192 in
theorem keptD_v6 (X : Valuation τ sig (Elt F)) : after opsD X (Proc.devRef .tc main_v6) = X (Proc.devRef .tc main_v6) := by kept_by opsD
set_option maxRecDepth 8192 in
theorem keptD_v31 (X : Valuation τ sig (Elt F)) : after opsD X (Proc.devRef .tc main_v31) = X (Proc.devRef .tc main_v31) := by kept_by opsD
set_option maxRecDepth 8192 in
theorem keptD_arg5 (X : Valuation τ sig (Elt F)) : after opsD X (Proc.devRef .tc main_arg5) = X (Proc.devRef .tc main_arg5) := by kept_by opsD
set_option maxRecDepth 8192 in
theorem keptE_arg5 (X : Valuation τ sig (Elt F)) : after opsE X (Proc.devRef .tc main_arg5) = X (Proc.devRef .tc main_arg5) := by kept_by opsE

/-! ## What each stretch computes -/

set_option maxRecDepth 8192 in
theorem stageA_v3 (X : Valuation τ sig (Elt F)) : after opsA X (Proc.devRef .tc main_v3) = val_main_v3 (F := F) (X (Proc.devRef .tc main_arg1)) := by
  unfold opsA; after_results_simp; rfl
set_option maxRecDepth 8192 in
theorem stageA_v6 (X : Valuation τ sig (Elt F)) : after opsA X (Proc.devRef .tc main_v6) = val_main_v6 (F := F) (X (Proc.devRef .tc main_arg1)) := by
  unfold opsA; after_results_simp; rfl
set_option maxRecDepth 8192 in
theorem stageA_v31 (X : Valuation τ sig (Elt F)) : after opsA X (Proc.devRef .tc main_v31) = val_main_v31 (F := F) (X (Proc.devRef .tc main_arg1)) := by
  unfold opsA; after_results_simp; rfl

theorem stageB_v32 (X : Valuation τ sig (Elt F)) :
    after opsB X (Proc.devRef .tc main_v32) = val_main_v32 (F := F) (X (Proc.devRef .tc main_arg0)) (X (Proc.devRef .tc main_arg2)) := by
  unfold opsB; after_results_simp; rfl

set_option maxRecDepth 8192 in
theorem stageC_v45 (X : Valuation τ sig (Elt F)) (x0 : (⟨S50000x512, .f32⟩ : BufTy).Contents (Elt F)) (x1 : (⟨S2x800000, .i32⟩ : BufTy).Contents (Elt F)) (x2 : (⟨S512x64, .f32⟩ : BufTy).Contents (Elt F))
    (h3 : X (Proc.devRef .tc main_v3) = val_main_v3 (F := F) x1) (h6 : X (Proc.devRef .tc main_v6) = val_main_v6 (F := F) x1)
    (h31 : X (Proc.devRef .tc main_v31) = val_main_v31 (F := F) x1) (h32 : X (Proc.devRef .tc main_v32) = val_main_v32 (F := F) x0 x2) :
    after opsC X (Proc.devRef .tc main_v45) = val_main_v45 (F := F) x0 x1 x2 := by
  unfold opsC; after_results_simp; rw [h3, h6, h31, h32]; rfl

set_option maxRecDepth 8192 in
theorem stageD_v50 (X : Valuation τ sig (Elt F)) (x0 : (⟨S50000x512, .f32⟩ : BufTy).Contents (Elt F)) (x1 : (⟨S2x800000, .i32⟩ : BufTy).Contents (Elt F)) (x2 : (⟨S512x64, .f32⟩ : BufTy).Contents (Elt F))
    (h45 : X (Proc.devRef .tc main_v45) = val_main_v45 (F := F) x0 x1 x2) :
    after opsD X (Proc.devRef .tc main_v50) = val_main_v50 (F := F) x0 x1 x2 (X (Proc.devRef .tc main_arg3)) (X (Proc.devRef .tc main_arg4)) := by
  unfold opsD; after_results_simp; rw [h45]; rfl

set_option maxRecDepth 8192 in
theorem stageE_v63 (X : Valuation τ sig (Elt F)) (x0 : (⟨S50000x512, .f32⟩ : BufTy).Contents (Elt F)) (x1 : (⟨S2x800000, .i32⟩ : BufTy).Contents (Elt F)) (x2 : (⟨S512x64, .f32⟩ : BufTy).Contents (Elt F)) (x3 : (⟨S64, .f32⟩ : BufTy).Contents (Elt F)) (x4 : (⟨S64x40, .f32⟩ : BufTy).Contents (Elt F))
    (h3 : X (Proc.devRef .tc main_v3) = val_main_v3 (F := F) x1) (h6 : X (Proc.devRef .tc main_v6) = val_main_v6 (F := F) x1)
    (h31 : X (Proc.devRef .tc main_v31) = val_main_v31 (F := F) x1) (h50 : X (Proc.devRef .tc main_v50) = val_main_v50 (F := F) x0 x1 x2 x3 x4) :
    after opsE X (Proc.devRef .tc main_v63) = val_main_v63 (F := F) x0 x1 x2 x3 x4 := by
  unfold opsE; after_results_simp; rw [h3, h6, h31, h50]; rfl

/-- Contents moved to a typed reference's buffer type and back are the contents. -/
theorem ofBuf_toBuf {Val : EltTy → Type} {T : BufTy} (x : TRef sig T) (v : T.Contents Val) : x.ofBuf (x.toBuf v) = v := by
  obtain ⟨r, rfl, _, _⟩ := x
  rfl

/-- The last stretch's result as a function of the second aggregation z and the bias b: z plus the bias row, minus its
    row maximum, minus the logarithm of the row sum of the exponentials (the operations of the stretch, composed). -/
def tailF (z : (⟨S50000x40, .f32⟩ : BufTy).Contents (Elt F)) (b : (⟨S40, .f32⟩ : BufTy).Contents (Elt F)) : (⟨S50000x40, .f32⟩ : BufTy).Contents (Elt F) :=
  ((subf : (⟨S50000x40, .f32⟩ : BufTy).Contents (Elt F) → (⟨S50000x40, .f32⟩ : BufTy).Contents (Elt F) → (⟨S50000x40, .f32⟩ : BufTy).Contents (Elt F)) ((subf : (⟨S50000x40, .f32⟩ : BufTy).Contents (Elt F) → (⟨S50000x40, .f32⟩ : BufTy).Contents (Elt F) → (⟨S50000x40, .f32⟩ : BufTy).Contents (Elt F)) ((addf : (⟨S50000x40, .f32⟩ : BufTy).Contents (Elt F) → (⟨S50000x40, .f32⟩ : BufTy).Contents (Elt F) → (⟨S50000x40, .f32⟩ : BufTy).Contents (Elt F)) z ((broadcastInDim S50000x40 ![0, 1] bcast_S1x40_S50000x40_0_1 : (⟨S1x40, .f32⟩ : BufTy).Contents (Elt F) → (⟨S50000x40, .f32⟩ : BufTy).Contents (Elt F)) ((broadcastInDim S1x40 ![1] bcast_S40_S1x40_1 : (⟨S40, .f32⟩ : BufTy).Contents (Elt F) → (⟨S1x40, .f32⟩ : BufTy).Contents (Elt F)) b))) (((broadcastInDim S50000x40 ![0, 1] bcast_S50000x1_S50000x40_0_1) : (⟨S50000x1, .f32⟩ : BufTy).Contents (Elt F) → (⟨S50000x40, .f32⟩ : BufTy).Contents (Elt F)) (((broadcastInDim S50000x1 ![0] bcast_S50000_S50000x1_0) : (⟨S50000, .f32⟩ : BufTy).Contents (Elt F) → (⟨S50000x1, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((broadcastInDim S50000 ![] bcast_S_S50000) : (⟨S_, .f32⟩ : BufTy).Contents (Elt F) → (⟨S50000, .f32⟩ : BufTy).Contents (Elt F)) ((constant S_ .f32 0xFF800000#32) : (⟨S_, .f32⟩ : BufTy).Contents (Elt F))) (((fun x v => Host.reduce FloatOps.maximumf x v reducesTo_S50000x40_S50000_d1 h_S_) : (⟨S50000x40, .f32⟩ : BufTy).Contents (Elt F) → (⟨S_, .f32⟩ : BufTy).Contents (Elt F) → (⟨S50000, .f32⟩ : BufTy).Contents (Elt F)) ((addf : (⟨S50000x40, .f32⟩ : BufTy).Contents (Elt F) → (⟨S50000x40, .f32⟩ : BufTy).Contents (Elt F) → (⟨S50000x40, .f32⟩ : BufTy).Contents (Elt F)) z ((broadcastInDim S50000x40 ![0, 1] bcast_S1x40_S50000x40_0_1 : (⟨S1x40, .f32⟩ : BufTy).Contents (Elt F) → (⟨S50000x40, .f32⟩ : BufTy).Contents (Elt F)) ((broadcastInDim S1x40 ![1] bcast_S40_S1x40_1 : (⟨S40, .f32⟩ : BufTy).Contents (Elt F) → (⟨S1x40, .f32⟩ : BufTy).Contents (Elt F)) b))) ((constant S_ .f32 0xFF800000#32) : (⟨S_, .f32⟩ : BufTy).Contents (Elt F))))))) (((broadcastInDim S50000x40 ![0, 1] bcast_S50000x1_S50000x40_0_1) : (⟨S50000x1, .f32⟩ : BufTy).Contents (Elt F) → (⟨S50000x40, .f32⟩ : BufTy).Contents (Elt F)) ((Host.log : (⟨S50000x1, .f32⟩ : BufTy).Contents (Elt F) → (⟨S50000x1, .f32⟩ : BufTy).Contents (Elt F)) (((broadcastInDim S50000x1 ![0] bcast_S50000_S50000x1_0) : (⟨S50000, .f32⟩ : BufTy).Contents (Elt F) → (⟨S50000x1, .f32⟩ : BufTy).Contents (Elt F)) (((fun x v => Host.reduceAdd x v reducesTo_S50000x40_S50000_d1 h_S_) : (⟨S50000x40, .f32⟩ : BufTy).Contents (Elt F) → (⟨S_, .f32⟩ : BufTy).Contents (Elt F) → (⟨S50000, .f32⟩ : BufTy).Contents (Elt F)) ((Host.exp : (⟨S50000x40, .f32⟩ : BufTy).Contents (Elt F) → (⟨S50000x40, .f32⟩ : BufTy).Contents (Elt F)) ((subf : (⟨S50000x40, .f32⟩ : BufTy).Contents (Elt F) → (⟨S50000x40, .f32⟩ : BufTy).Contents (Elt F) → (⟨S50000x40, .f32⟩ : BufTy).Contents (Elt F)) ((addf : (⟨S50000x40, .f32⟩ : BufTy).Contents (Elt F) → (⟨S50000x40, .f32⟩ : BufTy).Contents (Elt F) → (⟨S50000x40, .f32⟩ : BufTy).Contents (Elt F)) z ((broadcastInDim S50000x40 ![0, 1] bcast_S1x40_S50000x40_0_1 : (⟨S1x40, .f32⟩ : BufTy).Contents (Elt F) → (⟨S50000x40, .f32⟩ : BufTy).Contents (Elt F)) ((broadcastInDim S1x40 ![1] bcast_S40_S1x40_1 : (⟨S40, .f32⟩ : BufTy).Contents (Elt F) → (⟨S1x40, .f32⟩ : BufTy).Contents (Elt F)) b))) (((broadcastInDim S50000x40 ![0, 1] bcast_S50000x1_S50000x40_0_1) : (⟨S50000x1, .f32⟩ : BufTy).Contents (Elt F) → (⟨S50000x40, .f32⟩ : BufTy).Contents (Elt F)) (((broadcastInDim S50000x1 ![0] bcast_S50000_S50000x1_0) : (⟨S50000, .f32⟩ : BufTy).Contents (Elt F) → (⟨S50000x1, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((broadcastInDim S50000 ![] bcast_S_S50000) : (⟨S_, .f32⟩ : BufTy).Contents (Elt F) → (⟨S50000, .f32⟩ : BufTy).Contents (Elt F)) ((constant S_ .f32 0xFF800000#32) : (⟨S_, .f32⟩ : BufTy).Contents (Elt F))) (((fun x v => Host.reduce FloatOps.maximumf x v reducesTo_S50000x40_S50000_d1 h_S_) : (⟨S50000x40, .f32⟩ : BufTy).Contents (Elt F) → (⟨S_, .f32⟩ : BufTy).Contents (Elt F) → (⟨S50000, .f32⟩ : BufTy).Contents (Elt F)) ((addf : (⟨S50000x40, .f32⟩ : BufTy).Contents (Elt F) → (⟨S50000x40, .f32⟩ : BufTy).Contents (Elt F) → (⟨S50000x40, .f32⟩ : BufTy).Contents (Elt F)) z ((broadcastInDim S50000x40 ![0, 1] bcast_S1x40_S50000x40_0_1 : (⟨S1x40, .f32⟩ : BufTy).Contents (Elt F) → (⟨S50000x40, .f32⟩ : BufTy).Contents (Elt F)) ((broadcastInDim S1x40 ![1] bcast_S40_S1x40_1 : (⟨S40, .f32⟩ : BufTy).Contents (Elt F) → (⟨S1x40, .f32⟩ : BufTy).Contents (Elt F)) b))) ((constant S_ .f32 0xFF800000#32) : (⟨S_, .f32⟩ : BufTy).Contents (Elt F)))))))) ((constant S_ .f32 0x00000000#32) : (⟨S_, .f32⟩ : BufTy).Contents (Elt F)))))))

set_option maxRecDepth 8192 in
/-- The composed operations of the last stretch, at the reference's second aggregation, are its last stage. -/
theorem tailF_eq (x0 : (⟨S50000x512, .f32⟩ : BufTy).Contents (Elt F)) (x1 : (⟨S2x800000, .i32⟩ : BufTy).Contents (Elt F)) (x2 : (⟨S512x64, .f32⟩ : BufTy).Contents (Elt F)) (x3 : (⟨S64, .f32⟩ : BufTy).Contents (Elt F)) (x4 : (⟨S64x40, .f32⟩ : BufTy).Contents (Elt F)) (x5 : (⟨S40, .f32⟩ : BufTy).Contents (Elt F)) :
    tailF (val_main_v63 (F := F) x0 x1 x2 x3 x4) x5 = val_main_v67 (F := F) x0 x1 x2 x3 x4 x5 := by
  unfold tailF; rfl

set_option maxRecDepth 8192 in
/-- The last stretch, from contents holding z at the second aggregation's buffer and b at the bias argument. The
    operations of the outlined logarithm-of-softmax move each value to its buffer's type and back; those moves are
    removed by rewriting before the two sides are compared. -/
theorem stageF_raw (X : Valuation τ sig (Elt F)) (z : (⟨S50000x40, .f32⟩ : BufTy).Contents (Elt F)) (b : (⟨S40, .f32⟩ : BufTy).Contents (Elt F))
    (h63 : X (Proc.devRef .tc main_v63) = z) (h5 : X (Proc.devRef .tc main_arg5) = b) :
    after opsF X (Proc.devRef .tc main_v67) = tailF z b := by
  have e66 : ∀ y : (⟨S50000x40, .f32⟩ : BufTy).Contents (Elt F), (TRef.of (T := ⟨S50000x40, .f32⟩) main_v66).ofBuf (Val := Elt F) y = y := fun _ => rfl
  have eout : ∀ v : (⟨S50000x40, .f32⟩ : BufTy).Contents (Elt F), (TRef.of (T := ⟨S50000x40, .f32⟩) main_v67).toBuf (Val := Elt F) v = v := fun _ => rfl
  unfold opsF tailF; after_results_simp; rw [h63, h5]
  repeat rw [ofBuf_toBuf]
  repeat rw [e66]
  rw [eout]

theorem stageF_v67 (X : Valuation τ sig (Elt F)) (x0 : (⟨S50000x512, .f32⟩ : BufTy).Contents (Elt F)) (x1 : (⟨S2x800000, .i32⟩ : BufTy).Contents (Elt F)) (x2 : (⟨S512x64, .f32⟩ : BufTy).Contents (Elt F)) (x3 : (⟨S64, .f32⟩ : BufTy).Contents (Elt F)) (x4 : (⟨S64x40, .f32⟩ : BufTy).Contents (Elt F))
    (h63 : X (Proc.devRef .tc main_v63) = val_main_v63 (F := F) x0 x1 x2 x3 x4) :
    after opsF X (Proc.devRef .tc main_v67) = val_main_v67 (F := F) x0 x1 x2 x3 x4 (X (Proc.devRef .tc main_arg5)) :=
  (stageF_raw X _ _ h63 rfl).trans (tailF_eq x0 x1 x2 x3 x4 _)

/-! ## The whole line -/

/-- After the whole line, from any contents V, the result buffer holds the last stage function of what V held at the
    six arguments. -/
theorem after_ops_main_v67 (V : Valuation τ sig (Elt F)) :
    after ops V (Proc.devRef .tc main_v67)
      = val_main_v67 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_split, after_append, after_append, after_append, after_append, after_append]
  -- after stretch A
  have a3 := stageA_v3 V
  have a6 := stageA_v6 V
  have a31 := stageA_v31 V
  have a_0 := keptA_arg0 V
  have a_2 := keptA_arg2 V
  have a_3 := keptA_arg3 V
  have a_4 := keptA_arg4 V
  have a_5 := keptA_arg5 V
  generalize after opsA V = WA at *
  -- after stretch B
  have b32 : after opsB WA (Proc.devRef .tc main_v32) = val_main_v32 (F := F) (V (Proc.devRef .tc main_arg0)) (V (Proc.devRef .tc main_arg2)) := by
    rw [stageB_v32, a_0, a_2]
  have b3 := (keptB_v3 WA).trans a3
  have b6 := (keptB_v6 WA).trans a6
  have b31 := (keptB_v31 WA).trans a31
  have b_3 := (keptB_arg3 WA).trans a_3
  have b_4 := (keptB_arg4 WA).trans a_4
  have b_5 := (keptB_arg5 WA).trans a_5
  clear a3 a6 a31 a_0 a_2 a_3 a_4 a_5
  generalize after opsB WA = WB at *
  -- after stretch C
  have c45 := stageC_v45 WB _ _ _ b3 b6 b31 b32
  have c3 := (keptC_v3 WB).trans b3
  have c6 := (keptC_v6 WB).trans b6
  have c31 := (keptC_v31 WB).trans b31
  have c_3 := (keptC_arg3 WB).trans b_3
  have c_4 := (keptC_arg4 WB).trans b_4
  have c_5 := (keptC_arg5 WB).trans b_5
  clear b32 b3 b6 b31 b_3 b_4 b_5
  generalize after opsC WB = WC at *
  -- after stretch D
  have d50 := stageD_v50 WC _ _ _ c45
  rw [c_3, c_4] at d50
  have d3 := (keptD_v3 WC).trans c3
  have d6 := (keptD_v6 WC).trans c6
  have d31 := (keptD_v31 WC).trans c31
  have d_5 := (keptD_arg5 WC).trans c_5
  clear c45 c3 c6 c31 c_3 c_4 c_5
  generalize after opsD WC = WD at *
  -- after stretch E
  have e63 := stageE_v63 WD _ _ _ _ _ d3 d6 d31 d50
  have e_5 := (keptE_arg5 WD).trans d_5
  clear d50 d3 d6 d31 d_5
  generalize after opsE WD = WE at *
  -- the last stretch
  rw [stageF_v67 WE _ _ _ _ _ e63, e_5]

end Cert.ReferenceIdeal.Stages

end
-- ==== Proof.LibGraphOps.lean ====
/-
  Rows of a node table gathered along an edge list, and rows scattered back with addition, at the ideal values.

  A table x : [N, J] gathered at a column of E start indices has at (e, j) the entry x(r e, j), where r e is the start
  index of edge e read as a signed integer and clamped into [0, N - 1]; a vector x : [N] gathered the same way has at e
  the entry x(r e).  A scatter-add of updates u : [E, J] into a table [N, J] at a column of E indices adds u(e, j) into
  row d of column j exactly for the edges e whose index, read signed and NOT clamped, is d; an index outside [0, N)
  adds nothing.  So an edge that lands on row d has a non-negative index whose clamp is d itself.

  The law proved here (scatterAdd_rescale): if every update of one scatter is the matching update of another times a
  factor that depends only on the row the edge lands on, and that factor is a non-negative real number, then the first
  scatter's sum is the second's times the factor.  On the extended reals (a + b) * c = a * c + b * c holds for any a, b
  once 0 ≤ c < ⊤, which is what lets the factor leave the sum whatever the summands are.
  Also here: the host's reduction with a maximum body along the columns of a matrix, at a row, as a fold of max over the
  columns (hostRowMax_apply), at any extents.
  Imports only the library.
-/
import Idealize.ShloMosaic.PureOps.Ideal.Laws
import Idealize.ShloMosaic.Lib.ValueIdx
import Idealize.ShloMosaic.Lib.Pipeline.Value

noncomputable section

open scoped BigOperators

namespace Cert.LibGraph

open Idealize.ShloMosaic Idealize.ShloMosaic.ValueIdx

/-! ## A start index read signed and clamped into the table -/

/-- A start index word read as a signed integer and clamped into [0, N - 1]. -/
def clampIdx (N : Nat) (hN : 0 < N) {w : Nat} (v : BitVec w) : Fin N :=
  ⟨min v.toInt.toNat (N - 1), by have := Nat.min_le_right v.toInt.toNat (N - 1); omega⟩

/-- A non-negative index below N is its own clamp. -/
theorem clampIdx_of_landed {N : Nat} (hN : 0 < N) {w : Nat} (v : BitVec w) (d : Fin N) (h : v.toInt = (d.val : Int)) :
    clampIdx N hN v = d := by
  apply Fin.ext
  show min v.toInt.toNat (N - 1) = d.val
  have := d.isLt
  have h' : v.toInt.toNat = d.val := by omega
  rw [h']; omega

/-! ## Gathers of rows -/

/-- The dimension numbers of x[idx] for a table [N, J] and a column [E, 1] of start indices. -/
abbrev rowsGather (N J E : Nat) (wf : GatherDims.WF ⟨2, ![N, J]⟩ ⟨2, ![E, 1]⟩ ⟨2, ![E, J]⟩ [1] [0] [] [0] [] 1 ![1, J]) :
    GatherDims ⟨2, ![N, J]⟩ ⟨2, ![E, 1]⟩ ⟨2, ![E, J]⟩ where
  offsetDims := [1]
  collapsedSliceDims := [0]
  operandBatchingDims := []
  startIndicesBatchingDims := []
  startIndexMap := [0]
  indexVectorDim := 1
  sliceSizes := ![1, J]
  wf := wf

/-- The gathered table at (e, j) is the table at (clamped start index of e, j). -/
theorem gatherRows_apply {α : Type} {N J E w : Nat} (hN : 0 < N)
    (wf : GatherDims.WF ⟨2, ![N, J]⟩ ⟨2, ![E, 1]⟩ ⟨2, ![E, J]⟩ [1] [0] [] [0] [] 1 ![1, J])
    (x : (⟨2, ![N, J]⟩ : Shape).Idx → α) (idx : IVec ⟨2, ![E, 1]⟩ w) (e : Fin E) (j : Fin J) :
    Host.gather (rowsGather N J E wf) x idx (ix2 e j) = x (ix2 (clampIdx N hN (idx (ix2 e (0 : Fin 1)))) j) := by
  -- the row coordinate: the clamped start index, no batch and no offset part
  have h0 : (rowsGather N J E wf).start (ix2 e j) idx (0 : Fin 2) + (rowsGather N J E wf).batchCoord (ix2 e j) (0 : Fin 2)
      + (rowsGather N J E wf).offCoord (ix2 e j) (0 : Fin 2) = (clampIdx N hN (idx (ix2 e (0 : Fin 1)))).val := by
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowsGather N J E wf).startIndexMap from List.mem_singleton.mpr rfl)]
    have hsi : (rowsGather N J E wf).siIdx (ix2 e j) ⟨List.idxOf (0 : Fin 2) (rowsGather N J E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- the column coordinate: no start, no batch part, the result's own column
  have h1 : (rowsGather N J E wf).start (ix2 e j) idx (1 : Fin 2) + (rowsGather N J E wf).batchCoord (ix2 e j) (1 : Fin 2)
      + (rowsGather N J E wf).offCoord (ix2 e j) (1 : Fin 2) = j.val := by
    have hs : (rowsGather N J E wf).start (ix2 e j) idx (1 : Fin 2) = 0 := by
      unfold GatherDims.start
      exact dif_neg (show ¬ (1 : Fin 2) ∈ ([0] : List (Fin 2)) by decide)
    have hk : (1 : Fin 2) ∈ (rowsGather N J E wf).sKept :=
      (GatherDims.mem_sKept _ _).mpr ⟨(show ¬ (1 : Fin 2) ∈ ([0] : List (Fin 2)) by decide), List.not_mem_nil⟩
    rw [hs, GatherDims.batchCoord_eq_zero _ _ _ List.not_mem_nil, Nat.add_zero, Nat.zero_add]
    unfold GatherDims.offCoord
    rw [dif_pos hk]
    rfl
  unfold Host.gather
  refine congrArg x (funext fun a => Fin.ext ?_)
  match a with
  | ⟨0, _⟩ => exact h0
  | ⟨1, _⟩ => exact h1

/-- The dimension numbers of x[idx] for a vector [N] and a column [E, 1] of start indices. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gathered vector at e is the vector at the clamped start index of e. -/
theorem gatherVec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampIdx N hN (idx (ix2 e (0 : Fin 1))))) := by
  unfold Host.gather
  refine congrArg x (funext fun a => Fin.ext ?_)
  obtain rfl : a = 0 := Subsingleton.elim _ _
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Scatter-adds of rows -/

/-- The dimension numbers of .at[idx].add(u) for a table [N, J], a column [E, 1] of indices and updates [E, J]. -/
abbrev rowsScatter (N J E : Nat) (wf : ScatterDims.WF ⟨2, ![N, J]⟩ ⟨2, ![E, 1]⟩ ⟨2, ![E, J]⟩ [1] [0] [0] 1) :
    ScatterDims ⟨2, ![N, J]⟩ ⟨2, ![E, 1]⟩ ⟨2, ![E, J]⟩ where
  updateWindowDims := [1]
  insertedWindowDims := [0]
  scatterDimsToOperandDims := [0]
  indexVectorDim := 1
  wf := wf

/-- An update that lands on row d comes from an edge whose index, read signed, is d: it is not negative and its
    value is d. -/
theorem scatterRows_landed {N J E w : Nat} (wf : ScatterDims.WF ⟨2, ![N, J]⟩ ⟨2, ![E, 1]⟩ ⟨2, ![E, J]⟩ [1] [0] [0] 1)
    (idx : IVec ⟨2, ![E, 1]⟩ w) (u : (⟨2, ![E, J]⟩ : Shape).Idx) (i : (⟨2, ![N, J]⟩ : Shape).Idx)
    (h : (rowsScatter N J E wf).resultIdx? u idx = some i) :
    (idx (ix2 (u 0) (0 : Fin 1))).toInt = ((i 0).val : Int) := by
  unfold ScatterDims.resultIdx? at h
  split at h
  · rename_i hall
    have hi := congrFun (Option.some.inj h) 0
    have hv : ((rowsScatter N J E wf).start u idx 0 + (rowsScatter N J E wf).window u 0).toNat = (i 0).val :=
      congrArg Fin.val hi
    have hw : (rowsScatter N J E wf).window u (0 : Fin 2) = 0 := by
      unfold ScatterDims.window
      exact dif_neg (show ¬ (0 : Fin 2) ∈ (rowsScatter N J E wf).sKept by
        simp [ScatterDims.sKept, Shape.kept, List.mem_filter, List.mem_finRange])
    have hst : (rowsScatter N J E wf).start u idx (0 : Fin 2) = (idx (ix2 (u 0) (0 : Fin 1))).toInt := by
      unfold ScatterDims.start
      rw [dif_pos (show (0 : Fin 2) ∈ (rowsScatter N J E wf).scatterDimsToOperandDims from List.mem_singleton.mpr rfl)]
      have hsi : (rowsScatter N J E wf).siIdx u ⟨List.idxOf (0 : Fin 2) (rowsScatter N J E wf).scatterDimsToOperandDims,
          List.idxOf_lt_length_iff.2 (List.mem_singleton.mpr rfl)⟩ = ix2 (u 0) (0 : Fin 1) := by
        funext b; refine Fin.ext ?_
        match b with
        | ⟨0, _⟩ => rfl
        | ⟨1, _⟩ => rfl
      rw [hsi]
      rfl
    have hnn : 0 ≤ (rowsScatter N J E wf).start u idx 0 + (((rowsScatter N J E wf).window u 0 : Nat) : Int) := (hall 0).1
    rw [hw, hst] at hv hnn
    simp only [Nat.cast_zero, add_zero] at hv hnn
    omega
  · exact absurd h (by simp)

/-! ## A factor that leaves a sum -/

/-- A non-negative real factor leaves a finite sum of extended reals. -/
theorem sum_mul_of_nonneg_ne_top {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- THE LAW.  Two scatter-adds into zero tables at the same indices.  If at every update that lands on a row the
    second scatter's update is the first's times a factor c(row), and c(row) is a non-negative real, then at every
    entry the first scatter's sum times c(row) is the second's sum. -/
theorem scatterAdd_rescale {N J E w : Nat} (wf : ScatterDims.WF ⟨2, ![N, J]⟩ ⟨2, ![E, 1]⟩ ⟨2, ![E, J]⟩ [1] [0] [0] 1)
    (z : FVec Ideal ⟨2, ![N, J]⟩ .f32) (hz : ∀ i, z i = 0) (idx : IVec ⟨2, ![E, 1]⟩ w)
    (u₁ u₂ : FVec Ideal ⟨2, ![E, J]⟩ .f32) (c : Fin N → EReal) (h0 : ∀ n, 0 ≤ c n) (ht : ∀ n, c n ≠ ⊤)
    (hu : ∀ (u : (⟨2, ![E, J]⟩ : Shape).Idx) (i : (⟨2, ![N, J]⟩ : Shape).Idx),
      (rowsScatter N J E wf).resultIdx? u idx = some i → u₂ u = u₁ u * c (i 0))
    (i : (⟨2, ![N, J]⟩ : Shape).Idx) :
    Host.scatterAdd (F := Ideal) (rowsScatter N J E wf) z idx u₁ i * c (i 0)
      = Host.scatterAdd (F := Ideal) (rowsScatter N J E wf) z idx u₂ i := by
  simp only [Host.scatterAdd, Ideal.hostScatterAdd_def, Ideal.hostScatterAdd]
  rw [hz i, zero_add, zero_add]
  refine (sum_mul_of_nonneg_ne_top _ _ (c (i 0)) (h0 _) (ht _)).trans ?_
  refine Finset.sum_congr rfl fun u hu' => ?_
  exact (hu u i (Finset.mem_filter.mp hu').2).symm

/-! ## The inverse square root of a degree, guarded -/

/-- where(x > 0, rsqrt x, 0) on the extended reals is a non-negative real number, whatever x is: the inverse root of a
    positive real, 0 at +∞ (rsqrt's value there), and 0 where the guard fails. -/
theorem guardedRsqrt_nonneg_ne_top (x : EReal) :
    0 ≤ Scalar.select (Ideal.cmp .ogt x 0) (Ideal.rsqrt x) (0 : EReal)
      ∧ Scalar.select (Ideal.cmp .ogt x 0) (Ideal.rsqrt x) (0 : EReal) ≠ ⊤ := by
  induction x using EReal.rec with
  | bot => simp [Scalar.select, Ideal.cmp]
  | top =>
    have hr : Ideal.rsqrt (⊤ : EReal) = 0 := rfl
    simp [Scalar.select, Ideal.cmp, hr]
  | coe r =>
    by_cases h : 0 < r
    · have h1 : ¬ r < 0 := not_lt.mpr h.le
      have h2 : r ≠ 0 := h.ne'
      have hc : Ideal.cmp .ogt (r : EReal) 0 = 1#1 := by simp [Ideal.cmp, h]
      have hr : Ideal.rsqrt (r : EReal) = (((Real.sqrt r)⁻¹ : ℝ) : EReal) := by
        show (if r < 0 then (⊥ : EReal) else if r = 0 then ⊤ else (((Real.sqrt r)⁻¹ : ℝ) : EReal)) = _
        rw [if_neg h1, if_neg h2]
      rw [hc, show Scalar.select 1#1 (Ideal.rsqrt (r : EReal)) (0 : EReal) = Ideal.rsqrt (r : EReal) from if_pos rfl, hr]
      exact ⟨by exact_mod_cast inv_nonneg.mpr (Real.sqrt_nonneg r), EReal.coe_ne_top _⟩
    · have hc : Ideal.cmp .ogt (r : EReal) 0 = 0#1 := by simp [Ideal.cmp, h]
      rw [hc, show Scalar.select 0#1 (Ideal.rsqrt (r : EReal)) (0 : EReal) = 0 from if_neg (by decide)]
      exact ⟨le_refl _, EReal.zero_ne_top⟩

/-! ## A negative index wrapped, where the index is not negative -/

/-- where(v < 0, a, v) is v for an index word v that is not negative as a signed integer, whatever a is (in the
    programs a is v + n, the index wrapped from the end). -/
theorem wrapIdx_of_nonneg {w : Nat} (v a z : BitVec w) (hz : z = 0#w) (h : 0 ≤ v.toInt) :
    Scalar.select (IntOp.cmpi .slt v z) a v = v := by
  subst hz
  have : IntOp.cmpi .slt v 0#w = 0#1 := by
    simp only [IntOp.cmpi, BitVec.slt, BitVec.toInt_zero]
    simp [not_lt.mpr h]
  rw [this]
  exact if_neg (by decide)

/-! ## A row's maximum on the host -/

/-- The host's reduction with a maximum body along the columns of an [R, C] matrix, at row p: the fold of max, from the
    initial value, over the columns of that row's entries. -/
theorem hostRowMax_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x _ h' h hu]
  exact congrArg (fun f => Finset.fold max (init (Shape.Idx.first hu)) f (Finset.univ : Finset (Fin C)))
    (funext fun k => congrArg x (funext fun d => Fin.ext (by
      match d with
      | ⟨0, _⟩ => rfl
      | ⟨1, _⟩ => rfl)))

end Cert.LibGraph

end
-- ==== Proof.RefVals.lean ====
/-
  The reference program's last stage, as a function of the six arguments, is the network of HostChain.lean.

  Three dense stages are read entry by entry.  The first product: entry (p, q) is Σ_k x(p, k) · w1(k, q).  The second
  product: its left factor at (p, k) is max(a(p, k) + b1(k), 0) with a the first aggregation, so entry (p, q) is
  Σ_k max(a(p, k) + b1(k), 0) · w2(k, q).  The logarithm of the softmax: with y(c) = z(p, c) + b2(c), z the second
  aggregation, the program computes M' = max(-∞, fold of max from -∞ over y) — which is the fold itself, since the
  fold starts at -∞ and only grows —, then (y(q) - M') - log(0 + Σ_c exp(y(c) - M')), and the leading zero is the
  additive unit.  Between the dense stages stand the two aggregations, which are the shared function applied to the
  stage before (by definition).  Only +, ·, max, exp, log applied to equal arguments: no finiteness is needed.
-/
import proofs.«177866_j4209067950741_1_alg».proof.Proof.HostChain
import proofs.«177866_j4209067950741_1_alg».proof.Proof.LibGraphOps

noncomputable section

open scoped BigOperators

namespace Cert.ReferenceIdeal.RefVals

open Idealize.ShloMosaic Idealize.ShloMosaic.ValueIdx
open Cert.ReferenceIdeal Cert.ReferenceIdeal.Gen Cert.ReferenceIdeal.ReadP Cert.Gcn

/-! ## Scalar facts -/

/-- A fold of max that starts at b is at least b, so taking the maximum with b again changes nothing. -/
theorem max_fold_max {ι : Type} (b : EReal) (f : ι → EReal) (s : Finset ι) :
    max b (s.fold max b f) = s.fold max b f :=
  max_eq_right ((Finset.le_fold_max b).mpr (Or.inl le_rfl))

/-- The value of the f32 word of +0 is the additive unit. -/
theorem zero32_add (s : EReal) : zero32 + s = s := by
  unfold zero32
  rw [Ideal.ofBits_zero_f32, zero_add]

/-! ## The first product -/

theorem v32_eq_mm (x0 : (⟨S50000x512, .f32⟩ : BufTy).Contents (Elt Ideal)) (x2 : (⟨S512x64, .f32⟩ : BufTy).Contents (Elt Ideal)) :
    val_main_v32 (F := Ideal) x0 x2 = mm x0 x2 := by
  funext i
  obtain ⟨p, q, rfl⟩ : ∃ (p : Fin 50000) (q : Fin 64), i = ix2 p q := ⟨i 0, i 1, eq_ix2 i⟩
  rw [val_main_v32_apply, mm_apply]
  unfold mmE
  refine Finset.sum_congr rfl fun k _ => ?_
  have hl : lidx_main_v32 (ix2 p q) k = ix2 p k := funext fun a => by
    match a with
    | ⟨0, _⟩ => rfl
    | ⟨1, _⟩ => rfl
  have hr : ridx_main_v32 (ix2 p q) k = ix2 k q := funext fun a => by
    match a with
    | ⟨0, _⟩ => rfl
    | ⟨1, _⟩ => rfl
  rw [hl, hr]

/-! ## The second product -/

/-- The second product's left factor at (p, k): the first aggregation plus the bias, clipped at zero. -/
theorem v49_at (x0 : (⟨S50000x512, .f32⟩ : BufTy).Contents (Elt Ideal)) (x1 : (⟨S2x800000, .i32⟩ : BufTy).Contents (Elt Ideal))
    (x2 : (⟨S512x64, .f32⟩ : BufTy).Contents (Elt Ideal)) (x3 : (⟨S64, .f32⟩ : BufTy).Contents (Elt Ideal)) (p : Fin 50000) (k : Fin 64) :
    val_main_v49 (F := Ideal) x0 x1 x2 x3 (ix2 p k)
      = max (val_main_v45 (F := Ideal) x0 x1 x2 (ix2 p k) + rowOf x3 (ix2 0 k)) zero32 := by
  have hb : idx_main_v46 (idx_main_v47 (ix2 p k : S50000x64.Idx)) = ix1 k := funext fun a => by
    match a with
    | ⟨0, _⟩ => rfl
  rw [val_main_v49_apply, val_main_v48_apply, val_main_v47_apply, val_main_v46_apply, val_main_call1_v0_apply,
    val_main_call1_cst_apply, hb]
  rfl

theorem v50_eq_reluMm (x0 : (⟨S50000x512, .f32⟩ : BufTy).Contents (Elt Ideal)) (x1 : (⟨S2x800000, .i32⟩ : BufTy).Contents (Elt Ideal))
    (x2 : (⟨S512x64, .f32⟩ : BufTy).Contents (Elt Ideal)) (x3 : (⟨S64, .f32⟩ : BufTy).Contents (Elt Ideal))
    (x4 : (⟨S64x40, .f32⟩ : BufTy).Contents (Elt Ideal)) :
    val_main_v50 (F := Ideal) x0 x1 x2 x3 x4 = reluMm (val_main_v45 (F := Ideal) x0 x1 x2) (rowOf x3) x4 := by
  funext i
  obtain ⟨p, q, rfl⟩ : ∃ (p : Fin 50000) (q : Fin 40), i = ix2 p q := ⟨i 0, i 1, eq_ix2 i⟩
  rw [val_main_v50_apply, reluMm_apply]
  unfold reluMmE
  refine Finset.sum_congr rfl fun k _ => ?_
  have hl : lidx_main_v50 (ix2 p q) k = ix2 p k := funext fun a => by
    match a with
    | ⟨0, _⟩ => rfl
    | ⟨1, _⟩ => rfl
  have hr : ridx_main_v50 (ix2 p q) k = ix2 k q := funext fun a => by
    match a with
    | ⟨0, _⟩ => rfl
    | ⟨1, _⟩ => rfl
  rw [hl, hr, v49_at]

/-! ## The logarithm of the softmax -/

/-- The row p of the second aggregation plus the bias, as the program's stage reads it. -/
theorem v66_at (x0 : (⟨S50000x512, .f32⟩ : BufTy).Contents (Elt Ideal)) (x1 : (⟨S2x800000, .i32⟩ : BufTy).Contents (Elt Ideal))
    (x2 : (⟨S512x64, .f32⟩ : BufTy).Contents (Elt Ideal)) (x3 : (⟨S64, .f32⟩ : BufTy).Contents (Elt Ideal))
    (x4 : (⟨S64x40, .f32⟩ : BufTy).Contents (Elt Ideal)) (x5 : (⟨S40, .f32⟩ : BufTy).Contents (Elt Ideal)) (p : Fin 50000) (k : Fin 40) :
    val_main_v66 (F := Ideal) x0 x1 x2 x3 x4 x5 (ix2 p k)
      = biased (val_main_v63 (F := Ideal) x0 x1 x2 x3 x4) (rowOf x5) p k := by
  have hb : idx_main_v64 (idx_main_v65 (ix2 p k : S50000x40.Idx)) = ix1 k := funext fun a => by
    match a with
    | ⟨0, _⟩ => rfl
  rw [val_main_v66_apply, val_main_v65_apply, val_main_v64_apply, hb]
  rfl

/-- The program's row maximum is the maximum of the row, starting from -∞. -/
theorem call2_v2_at (x0 : (⟨S50000x512, .f32⟩ : BufTy).Contents (Elt Ideal)) (x1 : (⟨S2x800000, .i32⟩ : BufTy).Contents (Elt Ideal))
    (x2 : (⟨S512x64, .f32⟩ : BufTy).Contents (Elt Ideal)) (x3 : (⟨S64, .f32⟩ : BufTy).Contents (Elt Ideal))
    (x4 : (⟨S64x40, .f32⟩ : BufTy).Contents (Elt Ideal)) (x5 : (⟨S40, .f32⟩ : BufTy).Contents (Elt Ideal)) (p : Fin 50000) :
    val_main_call2_v2 (F := Ideal) x0 x1 x2 x3 x4 x5 (ix1 p)
      = rowMax (biased (val_main_v63 (F := Ideal) x0 x1 x2 x3 x4) (rowOf x5) p) := by
  rw [val_main_call2_v2_apply, val_main_call2_v1_apply, val_main_call2_cst_0_apply]
  unfold val_main_call2_v0
  rw [Cert.LibGraph.hostRowMax_apply (R := 50000) (C := 40) (val_main_v66 (F := Ideal) x0 x1 x2 x3 x4 x5)
    (val_main_call2_cst (F := Ideal)) reducesTo_S50000x40_S50000_d1 (by decide) h_S_ p]
  rw [val_main_call2_cst_apply]
  have hrow : (fun k : Fin 40 => val_main_v66 (F := Ideal) x0 x1 x2 x3 x4 x5 (ix2 p k))
      = biased (val_main_v63 (F := Ideal) x0 x1 x2 x3 x4) (rowOf x5) p := funext fun k => v66_at x0 x1 x2 x3 x4 x5 p k
  rw [hrow]
  exact max_fold_max _ _ _

/-- The shifted row: entry k minus the row maximum. -/
theorem call2_v5_at (x0 : (⟨S50000x512, .f32⟩ : BufTy).Contents (Elt Ideal)) (x1 : (⟨S2x800000, .i32⟩ : BufTy).Contents (Elt Ideal))
    (x2 : (⟨S512x64, .f32⟩ : BufTy).Contents (Elt Ideal)) (x3 : (⟨S64, .f32⟩ : BufTy).Contents (Elt Ideal))
    (x4 : (⟨S64x40, .f32⟩ : BufTy).Contents (Elt Ideal)) (x5 : (⟨S40, .f32⟩ : BufTy).Contents (Elt Ideal)) (p : Fin 50000) (k : Fin 40) :
    val_main_call2_v5 (F := Ideal) x0 x1 x2 x3 x4 x5 (ix2 p k)
      = biased (val_main_v63 (F := Ideal) x0 x1 x2 x3 x4) (rowOf x5) p k
        - rowMax (biased (val_main_v63 (F := Ideal) x0 x1 x2 x3 x4) (rowOf x5) p) := by
  have hb : idx_main_call2_v3 (idx_main_call2_v4 (ix2 p k : S50000x40.Idx)) = ix1 p := funext fun a => by
    match a with
    | ⟨0, _⟩ => rfl
  rw [val_main_call2_v5_apply, val_main_call2_v4_apply, val_main_call2_v3_apply, hb, call2_v2_at, v66_at]
  rfl

/-- The row's sum of exponentials of the shifted entries. -/
theorem call2_v7_at (x0 : (⟨S50000x512, .f32⟩ : BufTy).Contents (Elt Ideal)) (x1 : (⟨S2x800000, .i32⟩ : BufTy).Contents (Elt Ideal))
    (x2 : (⟨S512x64, .f32⟩ : BufTy).Contents (Elt Ideal)) (x3 : (⟨S64, .f32⟩ : BufTy).Contents (Elt Ideal))
    (x4 : (⟨S64x40, .f32⟩ : BufTy).Contents (Elt Ideal)) (x5 : (⟨S40, .f32⟩ : BufTy).Contents (Elt Ideal)) (p : Fin 50000) :
    val_main_call2_v7 (F := Ideal) x0 x1 x2 x3 x4 x5 (ix1 p)
      = ∑ k : Fin 40, Ideal.exp (biased (val_main_v63 (F := Ideal) x0 x1 x2 x3 x4) (rowOf x5) p k
          - rowMax (biased (val_main_v63 (F := Ideal) x0 x1 x2 x3 x4) (rowOf x5) p)) := by
  rw [val_main_call2_v7_apply, val_main_call2_cst_1_apply]
  refine (zero32_add _).trans (Finset.sum_congr rfl fun k _ => ?_)
  have hk : idx_main_call2_v7 (ix1 p) k = ix2 p k := funext fun a => by
    match a with
    | ⟨0, _⟩ => rfl
    | ⟨1, _⟩ => rfl
  rw [hk, val_main_call2_v6_apply, call2_v5_at]
  exact Ideal.hostUnary_exp_def _

theorem v67_eq_biasLogSoftmax (x0 : (⟨S50000x512, .f32⟩ : BufTy).Contents (Elt Ideal)) (x1 : (⟨S2x800000, .i32⟩ : BufTy).Contents (Elt Ideal))
    (x2 : (⟨S512x64, .f32⟩ : BufTy).Contents (Elt Ideal)) (x3 : (⟨S64, .f32⟩ : BufTy).Contents (Elt Ideal))
    (x4 : (⟨S64x40, .f32⟩ : BufTy).Contents (Elt Ideal)) (x5 : (⟨S40, .f32⟩ : BufTy).Contents (Elt Ideal)) :
    val_main_v67 (F := Ideal) x0 x1 x2 x3 x4 x5
      = biasLogSoftmax (val_main_v63 (F := Ideal) x0 x1 x2 x3 x4) (rowOf x5) := by
  funext i
  obtain ⟨p, q, rfl⟩ : ∃ (p : Fin 50000) (q : Fin 40), i = ix2 p q := ⟨i 0, i 1, eq_ix2 i⟩
  have hb : idx_main_call2_v8 (idx_main_call2_v10 (ix2 p q : S50000x40.Idx)) = ix1 p := funext fun a => by
    match a with
    | ⟨0, _⟩ => rfl
  rw [val_main_v67_apply, val_main_call2_v10_apply, val_main_call2_v9_apply, val_main_call2_v8_apply, hb,
    call2_v7_at, call2_v5_at, biasLogSoftmax_apply, Ideal.subf_def, Ideal.hostUnary_log_def]
  unfold logSoftmaxRow
  rfl

/-! ## The whole -/

/-- The reference program's last stage is the network, as functions of the six arguments. -/
theorem val_main_v67_eq_result (x0 : (⟨S50000x512, .f32⟩ : BufTy).Contents (Elt Ideal)) (x1 : (⟨S2x800000, .i32⟩ : BufTy).Contents (Elt Ideal))
    (x2 : (⟨S512x64, .f32⟩ : BufTy).Contents (Elt Ideal)) (x3 : (⟨S64, .f32⟩ : BufTy).Contents (Elt Ideal))
    (x4 : (⟨S64x40, .f32⟩ : BufTy).Contents (Elt Ideal)) (x5 : (⟨S40, .f32⟩ : BufTy).Contents (Elt Ideal)) :
    val_main_v67 (F := Ideal) x0 x1 x2 x3 x4 x5 = Cert.Gcn.result x0 x1 x2 x3 x4 x5 := by
  rw [v67_eq_biasLogSoftmax, ref_v63, v50_eq_reluMm, ref_v45, v32_eq_mm]
  rfl

end Cert.ReferenceIdeal.RefVals

end
-- ==== Proof.RefValue.lean ====
/-
  The reference program's run, with its result buffer read as the network of HostChain.lean.

  Every weakly fair execution of the reference program terminates with the result buffer at the fold of its 101
  operations over the launch contents (the run of RefRunP.lean); that fold at the result buffer is the last stage
  function of the six arguments (RefStages.lean, the line read back in six stretches), and the last stage function is
  the network  logsoftmax( A( relu( A( x·W1 ) + b1 ) · W2 ) + b2 )  (RefVals.lean).  The arguments are unchanged.
-/
import proofs.«177866_j4209067950741_1_alg».proof.Proof.RefRunP
import proofs.«177866_j4209067950741_1_alg».proof.Proof.RefStages
import proofs.«177866_j4209067950741_1_alg».proof.Proof.RefVals

noncomputable section

namespace Cert.ReferenceIdeal.RefValue

open Cert.ReferenceIdeal Cert.ReferenceIdeal.Gen Idealize.ShloMosaic Idealize.ShloMosaic.TcCoe Idealize.SL.Sem Idealize.ShloMosaic.StableHlo

/-- On every device, from any memory with zero counters: every weakly fair execution of the reference program
    terminates with the result buffer at the network applied to the six arguments' launch contents, and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v67)
        = Cert.Gcn.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c).1.trans ((Cert.ReferenceIdeal.Stages.after_ops_main_v67 (launchContents m c)).trans
          (Cert.ReferenceIdeal.RefVals.val_main_v67_eq_result _ _ _ _ _ _)),
        (h c).2⟩)
    (Cert.ReferenceIdeal.ValueP.run m ρ)

end Cert.ReferenceIdeal.RefValue

end
-- ==== Proof.lean ====
/-
  The certificate of a two-layer graph convolution: a Pallas program of three dense kernels (x·W1; relu(· + b1)·W2;
  log-softmax(· + b2)) with the edge aggregation between them on the host, against the plain jnp network.

  At the ideal values both programs compute   logsoftmax( A( relu( A( x·W1 ) + b1 ) · W2 ) + b2 ),   A the normalised
  gather / scale / scatter-add along the edge list.  The edge data and A are the same host operations in both
  programs and are carried as one function that is never opened (Proof/HostChain.lean).  What differs is how the three
  dense stages are computed, and each is the same function of whole matrices on both sides (Proof/Spec.lean):
  the kernel's blocks of 2000 rows tile the 50000 rows and each block is the stage restricted to its rows
  (Proof/Region0.lean, Region1.lean, Region2.lean: a matrix unit's product into a zero accumulator is the sum over the
  contracted axis, rounding to bf16 is the identity on the extended reals, the row maximum and the row sum of a block's
  row are those of the array's row); the reference's dot_general is the same sum, its relu the same max with zero, its
  log_softmax the same shifted form (the Ref* modules).  The kernel's result array is then read through the program's
  segments (Proof/KernelStages.lean, KernelValue.lean), the reference's through its operations in stretches.
  No finiteness of the inputs is used: only the same operations applied to equal arguments, and sums over the same
  finite index sets.  The idealization rewrote nothing, so its conjunct is trivial.
-/
import proofs.«177866_j4209067950741_1_alg».proof.Defs
import proofs.«177866_j4209067950741_1_alg».proof.Proof.Gen.Kernel
import proofs.«177866_j4209067950741_1_alg».proof.Proof.Gen.Kernel.Frame
import proofs.«177866_j4209067950741_1_alg».proof.Proof.Gen.KernelIdeal
import proofs.«177866_j4209067950741_1_alg».proof.Proof.Gen.KernelIdeal.Frame
import proofs.«177866_j4209067950741_1_alg».proof.Proof.Gen.ReferenceIdeal
import proofs.«177866_j4209067950741_1_alg».proof.Proof.Gen.Pre_finite_inputs
import proofs.«177866_j4209067950741_1_alg».proof.Proof.KernelValue
import proofs.«177866_j4209067950741_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both runs end with the result array at the network's output of their arguments, and the arguments agree. -/
theorem algebraic : Cert.algebraic_KernelIdeal_ReferenceIdeal := by
  intro m ρ m' ρ' _ hagree
  refine ⟨fun c => Cert.Gcn.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KVal.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
